-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v36_0)) (v1 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36_0) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x128 : Shape := ⟨3, ![32, 1024, 128]⟩
abbrev S384x128 : Shape := ⟨2, ![384, 128]⟩
abbrev S384 : Shape := ⟨1, ![384]⟩
abbrev S128x128 : Shape := ⟨2, ![128, 128]⟩
abbrev S128 : Shape := ⟨1, ![128]⟩
abbrev S_ : Shape := ⟨0, ![]⟩

class Facts : Prop where
  bcast_S_S32x1024x128 : S_.BroadcastsInDim S32x1024x128 (![] : Fin 0 → Fin S32x1024x128.rank)
  reducesTo_S32x1024x128_S_d0_1_2 : S32x1024x128.ReducesTo [0, 1, 2] S_
  h_S_ : 0 < S_.numel
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S32x1024x128 .f32) (main_arg1 : FVec F S384x128 .f32) (main_arg2 : FVec F S384 .f32) (main_arg3 : FVec F S128x128 .f32) (main_arg4 : FVec F S128 .f32) : IVec S_ 1 :=
  let main_v0 : FVec F S32x1024x128 .f32 := Host.absf main_arg0
  let main_cst : FVec F S_ .f32 := constant S_ .f32 0x7F800000#32
  let main_v1 : FVec F S32x1024x128 .f32 := broadcastInDim S32x1024x128 ![] bcast_S_S32x1024x128 main_cst
  let main_v2 : IVec S32x1024x128 1 := cmpf .olt main_v0 main_v1
  let main_c : IVec S_ 1 := constantI S_ 1 1#1
  let main_v3 : IVec S_ 1 := (fun x v => Host.reduce IntOp.andi x v reducesTo_S32x1024x128_S_d0_1_2 h_S_) main_v2 main_c
  let main_v4 : FVec F S384x128 .f32 := Host.absf main_arg1
  let main_cst_0 : FVec F S_ .f32 := constant S_ .f32 0x7F800000#32
  let main_v5 : FVec F S384x128 .f32 := broadcastInDim S384x128 ![] bcast_S_S384x128 main_cst_0
  let main_v6 : IVec S384x128 1 := cmpf .olt main_v4 main_v5
  let main_c_1 : IVec S_ 1 := constantI S_ 1 1#1
  let main_v7 : IVec S_ 1 := (fun x v => Host.reduce IntOp.andi x v reducesTo_S384x128_S_d0_1 h_S_) main_v6 main_c_1
  let main_v8 : IVec S_ 1 := andi main_v3 main_v7
  let main_v9 : FVec F S384 .f32 := Host.absf main_arg2
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S32x1024x128 : Shape := ⟨3, ![32, 1024, 128]⟩
abbrev S384x128 : Shape := ⟨2, ![384, 128]⟩
abbrev S384 : Shape := ⟨1, ![384]⟩
abbrev S128x128 : Shape := ⟨2, ![128, 128]⟩
abbrev S128 : Shape := ⟨1, ![128]⟩
abbrev S_ : Shape := ⟨0, ![]⟩
abbrev S128x1 : Shape := ⟨2, ![128, 1]⟩
abbrev S128x384 : Shape := ⟨2, ![128, 384]⟩
abbrev S1x384 : Shape := ⟨2, ![1, 384]⟩
abbrev S1x128 : Shape := ⟨2, ![1, 128]⟩
abbrev S1x1024x128 : Shape := ⟨3, ![1, 1024, 128]⟩
abbrev S1024x128 : Shape := ⟨2, ![1024, 128]⟩
abbrev S1024x384 : Shape := ⟨2, ![1024, 384]⟩
abbrev S1024x16 : Shape := ⟨2, ![1024, 16]⟩
abbrev S16x1024 : Shape := ⟨2, ![16, 1024]⟩
abbrev S1024x1024 : Shape := ⟨2, ![1024, 1024]⟩
abbrev S1024 : Shape := ⟨1, ![1024]⟩
abbrev S1024x1 : Shape := ⟨2, ![1024, 1]⟩
abbrev S32x1024x8x16 : Shape := ⟨4, ![32, 1024, 8, 16]⟩
abbrev S32x8x1024x16 : Shape := ⟨4, ![32, 8, 1024, 16]⟩

abbrev nBuf : Space → Nat
  | .hbm => 60
  | .vmem => 10
  | .smem => 0
  | _ => 0

abbrev bufTy : (tb : Table) → Fin (tcTables nBuf tb) → BufTy
  | .hbm, ⟨0, _⟩ => ⟨S32x1024x128, .f32⟩
  | .hbm, ⟨1, _⟩ => ⟨S384x128, .f32⟩
  | .hbm, ⟨2, _⟩ => ⟨S384, .f32⟩
  | .hbm, ⟨3, _⟩ => ⟨S128x128, .f32⟩
  | .hbm, ⟨4, _⟩ => ⟨S128, .f32⟩
  | .hbm, ⟨5, _⟩ => ⟨S128, .i32⟩
  | .hbm, ⟨6, _⟩ => ⟨S128, .i1⟩
  | .hbm, ⟨7, _⟩ => ⟨S128, .i32⟩
  | .hbm, ⟨8, _⟩ => ⟨S128, .i1⟩
  | .hbm, ⟨9, _⟩ => ⟨S128, .i32⟩
  | .hbm, ⟨10, _⟩ => ⟨S128, .i1⟩
  | .hbm, ⟨11, _⟩ => ⟨S128, .i1⟩
  | .hbm, ⟨12, _⟩ => ⟨S128, .i1⟩
  | .hbm, ⟨13, _⟩ => ⟨S128, .i1⟩
  | .hbm, ⟨14, _⟩ => ⟨S_, .i32⟩
  | .hbm, ⟨15, _⟩ => ⟨S128, .i32⟩
  | .hbm, ⟨16, _⟩ => ⟨S128, .i32⟩
  | .hbm, ⟨17, _⟩ => ⟨S128, .i32⟩
  | .hbm, ⟨18, _⟩ => ⟨S128x1, .i32⟩
  | .hbm, ⟨19, _⟩ => ⟨S128x128, .f32⟩
  | .hbm, ⟨20, _⟩ => ⟨S_, .i32⟩
  | .hbm, ⟨21, _⟩ => ⟨S128, .i32⟩
  | .hbm, ⟨22, _⟩ => ⟨S128, .i32⟩
  | .hbm, ⟨23, _⟩ => ⟨S128, .i32⟩
  | .hbm, ⟨24, _⟩ => ⟨S128x1, .i32⟩
  | .hbm, ⟨25, _⟩ => ⟨S128x128, .f32⟩
  | .hbm, ⟨26, _⟩ => ⟨S_, .i32⟩
  | .hbm, ⟨27, _⟩ => ⟨S128, .i32⟩
  | .hbm, ⟨28, _⟩ => ⟨S128, .i32⟩
  | .hbm, ⟨29, _⟩ => ⟨S128, .i32⟩
  | .hbm, ⟨30, _⟩ => ⟨S128x1, .i32⟩
  | .hbm, ⟨31, _⟩ => ⟨S128x128, .f32⟩
  | .hbm, ⟨32, _⟩ => ⟨S_, .i32⟩
  | .hbm, ⟨33, _⟩ => ⟨S128, .i32⟩
  | .hbm, ⟨34, _⟩ => ⟨S128, .i32⟩
  | .hbm, ⟨35, _⟩ => ⟨S128, .i32⟩
  | .hbm, ⟨36, _⟩ => ⟨S128x1, .i32⟩
  | .hbm, ⟨37, _⟩ => ⟨S128, .f32⟩
  | .hbm, ⟨38, _⟩ => ⟨S_, .i32⟩
  | .hbm, ⟨39, _⟩ => ⟨S128, .i32⟩
  | .hbm, ⟨40, _⟩ => ⟨S128, .i32⟩
  | .hbm, ⟨41, _⟩ => ⟨S128, .i32⟩
  | .hbm, ⟨42, _⟩ => ⟨S128x1, .i32⟩
  | .hbm, ⟨43, _⟩ => ⟨S128, .f32⟩
  | .hbm, ⟨44, _⟩ => ⟨S_, .i32⟩
  | .hbm, ⟨45, _⟩ => ⟨S128, .i32⟩
  | .hbm, ⟨46, _⟩ => ⟨S128, .i32⟩
  | .hbm, ⟨47, _⟩ => ⟨S128, .i32⟩
  | .hbm, ⟨48, _⟩ => ⟨S128x1, .i32⟩
  | .hbm, ⟨49, _⟩ => ⟨S128, .f32⟩
  | .hbm, ⟨50, _⟩ => ⟨S384x128, .f32⟩
  | .hbm, ⟨51, _⟩ => ⟨S128x384, .f32⟩
  | .hbm, ⟨52, _⟩ => ⟨S384, .f32⟩
  | .hbm, ⟨53, _⟩ => ⟨S1x384, .f32⟩
  | .hbm, ⟨54, _⟩ => ⟨S128x128, .f32⟩
  | .hbm, ⟨55, _⟩ => ⟨S1x128, .f32⟩
  | .hbm, ⟨56, _⟩ => ⟨S32x1024x128, .f32⟩
  | .hbm, ⟨57, _⟩ => ⟨S32x1024x128, .f32⟩
  | .hbm, ⟨58, _⟩ => ⟨S32x1024x8x16, .f32⟩
  | .hbm, ⟨59, _⟩ => ⟨S32x8x1024x16, .f32⟩
  | .local _ .vmem, ⟨0, _⟩ => ⟨S1x1024x128, .f32⟩
  | .local _ .vmem, ⟨1, _⟩ => ⟨S1x1024x128, .f32⟩
  | .local _ .vmem, ⟨2, _⟩ => ⟨S128x384, .f32⟩
  | .local _ .vmem, ⟨3, _⟩ => ⟨S1x384, .f32⟩
  | .local _ .vmem, ⟨4, _⟩ => ⟨S128x128, .f32⟩
  | .local _ .vmem, ⟨5, _⟩ => ⟨S1x128, .f32⟩
  | .local _ .vmem, ⟨6, _⟩ => ⟨S1x1024x128, .f32⟩
  | .local _ .vmem, ⟨7, _⟩ => ⟨S1x1024x128, .f32⟩
  | .local _ .vmem, ⟨8, _⟩ => ⟨S1x1024x128, .f32⟩
  | .local _ .vmem, ⟨9, _⟩ => ⟨S1x1024x128, .f32⟩
  | _, _ => ⟨S32x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_c_3 : Ref sig .tc := ⟨.hbm, 9, rfl⟩
abbrev main_c_4 : Ref sig .tc := ⟨.hbm, 10, rfl⟩
abbrev main_c_5 : Ref sig .tc := ⟨.hbm, 11, rfl⟩
abbrev main_c_6 : Ref sig .tc := ⟨.hbm, 12, rfl⟩
abbrev main_c_7 : Ref sig .tc := ⟨.hbm, 13, rfl⟩
abbrev main_c_8 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c_9 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c_10 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_11 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_12 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_13 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36_0 : Ref sig .tc := ⟨.hbm, 56, rfl⟩
abbrev main_v36_1 : Ref sig .tc := ⟨.hbm, 57, rfl⟩
abbrev main_v37 : Ref sig .tc := ⟨.hbm, 58, rfl⟩
abbrev main_v38 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S128 : S_.BroadcastsInDim S128 (![] : Fin 0 → Fin S128.rank)
  bcast_S128_S128x1_0 : S128.BroadcastsInDim S128x1 (![0] : Fin 1 → Fin S128x1.rank)
  concatenates_S128x128_S128x128_S128x128_S384x128_d0 : Shape.Concatenates [S128x128, S128x128, S128x128] S384x128 0
  transposes_S384x128_S128x384_1_0 : S384x128.Transposes [1, 0] S128x384
  concatenates_S128_S128_S128_S384_d0 : Shape.Concatenates [S128, S128, S128] S384 0
  shapeCasts_S384_S1x384 : S384.ShapeCasts S1x384
  transposes_S128x128_S128x128_1_0 : S128x128.Transposes [1, 0] S128x128
  shapeCasts_S128_S1x128 : S128.ShapeCasts S1x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S1024x384 : S1x384.Broadcasts S1024x384
  slices_S1024x384_o0_0_S1024x16 : S1024x384.Slices ![0, 0] S1024x16
  slices_S1024x384_o0_128_S1024x16 : S1024x384.Slices ![0, 128] S1024x16
  slices_S1024x384_o0_256_S1024x16 : S1024x384.Slices ![0, 256] S1024x16
  transposes_S1024x16_p1_0_S16x1024 : S1024x16.Transposes [1, 0] S16x1024
  reduces_S1024x1024_S1024 : S1024x1024.Reduces [1] S1024
  shapeCasts_S1024_S1024x1 : S1024.ShapeCasts S1024x1
  broadcasts_S1024x1_S1024x1024 : S1024x1.Broadcasts S1024x1024
  slices_S1024x384_o0_16_S1024x16 : S1024x384.Slices ![0, 16] S1024x16
  slices_S1024x384_o0_144_S1024x16 : S1024x384.Slices ![0, 144] S1024x16
  slices_S1024x384_o0_272_S1024x16 : S1024x384.Slices ![0, 272] S1024x16
  slices_S1024x384_o0_32_S1024x16 : S1024x384.Slices ![0, 32] S1024x16
  slices_S1024x384_o0_160_S1024x16 : S1024x384.Slices ![0, 160] S1024x16
  slices_S1024x384_o0_288_S1024x16 : S1024x384.Slices ![0, 288] S1024x16
  slices_S1024x384_o0_48_S1024x16 : S1024x384.Slices ![0, 48] S1024x16
  slices_S1024x384_o0_176_S1024x16 : S1024x384.Slices ![0, 176] S1024x16
  slices_S1024x384_o0_304_S1024x16 : S1024x384.Slices ![0, 304] S1024x16
  slices_S1024x384_o0_64_S1024x16 : S1024x384.Slices ![0, 64] S1024x16
  slices_S1024x384_o0_192_S1024x16 : S1024x384.Slices ![0, 192] S1024x16
  slices_S1024x384_o0_320_S1024x16 : S1024x384.Slices ![0, 320] S1024x16
  slices_S1024x384_o0_80_S1024x16 : S1024x384.Slices ![0, 80] S1024x16
  slices_S1024x384_o0_208_S1024x16 : S1024x384.Slices ![0, 208] S1024x16
  slices_S1024x384_o0_336_S1024x16 : S1024x384.Slices ![0, 336] S1024x16
  slices_S1024x384_o0_96_S1024x16 : S1024x384.Slices ![0, 96] S1024x16
  slices_S1024x384_o0_224_S1024x16 : S1024x384.Slices ![0, 224] S1024x16
  slices_S1024x384_o0_352_S1024x16 : S1024x384.Slices ![0, 352] S1024x16
  slices_S1024x384_o0_112_S1024x16 : S1024x384.Slices ![0, 112] S1024x16
  slices_S1024x384_o0_240_S1024x16 : S1024x384.Slices ![0, 240] S1024x16
  slices_S1024x384_o0_368_S1024x16 : S1024x384.Slices ![0, 368] S1024x16
  concatenates_S1024x16_S1024x16_S1024x16_S1024x16_S1024x16_S1024x16_S1024x16_S1024x16_S1024x128_d1 : Shape.Concatenates [S1024x16, S1024x16, S1024x16, S1024x16, S1024x16, S1024x16, S1024x16, S1024x16] S1024x128 1
  shapeCasts_S1024x128_S1x1024x128 : S1024x128.ShapeCasts S1x1024x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  shapeCasts_S32x1024x128_S32x1024x8x16 : S32x1024x128.ShapeCasts S32x1024x8x16
  transposes_S32x1024x8x16_S32x8x1024x16_0_2_1_3 : S32x1024x8x16.Transposes [0, 2, 1, 3] S32x8x1024x16
  gather_S384x128_S128x1_S128x128_1_0_n_n_0_1_1128_wf : GatherDims.WF S384x128 S128x1 S128x128 [1] [0] [] [0] [] 1 ![1, 128]
  gather_S384_S128x1_S128_n_0_n_n_0_1_1_wf : GatherDims.WF S384 S128x1 S128 [] [0] [] [0] [] 1 ![1]
  dot_S1024x128_S128x384_S1024x384_1_0_0_1_n_n_wf : DotDims.WF S1024x128 S128x384 S1024x384 [1] [0] [0] [1] [] []
  dot_S1024x16_S16x1024_S1024x1024_1_0_0_1_n_n_wf : DotDims.WF S1024x16 S16x1024 S1024x1024 [1] [0] [0] [1] [] []
  dot_S1024x1024_S1024x16_S1024x16_1_0_0_1_n_n_wf : DotDims.WF S1024x1024 S1024x16 S1024x16 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S32x1024x128.size a
  hwx0_0 : ∀ i : grid0.Coords, EltTy.bits .f32 = 32 ∨ (Rect.block (s := S32x1024x128) S1x1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x128.size a ≤ S32x1024x128.size a
  hwx0_5 : ∀ i : grid0.Coords, EltTy.bits .f32 = 32 ∨ (Rect.block (s := S32x1024x128) S1x1024x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x128.size a ≤ S32x1024x128.size a
  hwx0_6 : ∀ i : grid0.Coords, EltTy.bits .f32 = 32 ∨ (Rect.block (s := S32x1024x128) S1x1024x128.size (cc0_transform_6 i) (hinb0_6 i)).WholeWords (EltTy.packing .f32)

variable [Facts₀]

def gather_S384x128_S128x1_S128x128_1_0_n_n_0_1_1128 : GatherDims S384x128 S128x1 S128x128 where
  offsetDims := [1]
  collapsedSliceDims := [0]
  operandBatchingDims := []
  startIndicesBatchingDims := []
  startIndexMap := [0]
  indexVectorDim := 1
  sliceSizes := ![1, 128]
  wf := gather_S384x128_S128x1_S128x128_1_0_n_n_0_1_1128_wf
def gather_S384_S128x1_S128_n_0_n_n_0_1_1 : GatherDims S384 S128x1 S128 where
  offsetDims := []
  collapsedSliceDims := [0]
  operandBatchingDims := []
  startIndicesBatchingDims := []
  startIndexMap := [0]
  indexVectorDim := 1
  sliceSizes := ![1]
  wf := gather_S384_S128x1_S128_n_0_n_n_0_1_1_wf
def dot_S1024x128_S128x384_S1024x384_1_0_0_1_n_n : DotDims S1024x128 S128x384 S1024x384 where
  lhsContracting := [1]
  rhsContracting := [0]
  lhsNonContracting := [0]
  rhsNonContracting := [1]
  lhsBatch := []
  rhsBatch := []
  wf := dot_S1024x128_S128x384_S1024x384_1_0_0_1_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36_0) S1x1024x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v36_1) S1x1024x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x1024x128 : Shape := ⟨3, ![32, 1024, 128]⟩
abbrev S384x128 : Shape := ⟨2, ![384, 128]⟩
abbrev S384 : Shape := ⟨1, ![384]⟩
abbrev S128x128 : Shape := ⟨2, ![128, 128]⟩
abbrev S128 : Shape := ⟨1, ![128]⟩
abbrev S32x1024x384 : Shape := ⟨3, ![32, 1024, 384]⟩
abbrev S1x1x384 : Shape := ⟨3, ![1, 1, 384]⟩
abbrev S32x1024x8x48 : Shape := ⟨4, ![32, 1024, 8, 48]⟩
abbrev S32x8x1024x48 : Shape := ⟨4, ![32, 8, 1024, 48]⟩
abbrev S32x8x1024x16 : Shape := ⟨4, ![32, 8, 1024, 16]⟩
abbrev S32x8x1024x1024 : Shape := ⟨4, ![32, 8, 1024, 1024]⟩
abbrev S_ : Shape := ⟨0, ![]⟩
abbrev S32x8x1024 : Shape := ⟨3, ![32, 8, 1024]⟩
abbrev S32x8x1024x1 : Shape := ⟨4, ![32, 8, 1024, 1]⟩
abbrev S32x1024x8x16 : Shape := ⟨4, ![32, 1024, 8, 16]⟩
abbrev S1x1x128 : Shape := ⟨3, ![1, 1, 128]⟩

abbrev nBuf : Space → Nat
  | .hbm => 36
  | .vmem => 0
  | .smem => 0
  | _ => 0

abbrev bufTy : (tb : Table) → Fin (tcTables nBuf tb) → BufTy
  | .hbm, ⟨0, _⟩ => ⟨S32x1024x128, .f32⟩
  | .hbm, ⟨1, _⟩ => ⟨S384x128, .f32⟩
  | .hbm, ⟨2, _⟩ => ⟨S384, .f32⟩
  | .hbm, ⟨3, _⟩ => ⟨S128x128, .f32⟩
  | .hbm, ⟨4, _⟩ => ⟨S128, .f32⟩
  | .hbm, ⟨5, _⟩ => ⟨S32x1024x384, .f32⟩
  | .hbm, ⟨6, _⟩ => ⟨S1x1x384, .f32⟩
  | .hbm, ⟨7, _⟩ => ⟨S32x1024x384, .f32⟩
  | .hbm, ⟨8, _⟩ => ⟨S32x1024x384, .f32⟩
  | .hbm, ⟨9, _⟩ => ⟨S32x1024x8x48, .f32⟩
  | .hbm, ⟨10, _⟩ => ⟨S32x8x1024x48, .f32⟩
  | .hbm, ⟨11, _⟩ => ⟨S32x8x1024x16, .f32⟩
  | .hbm, ⟨12, _⟩ => ⟨S32x8x1024x16, .f32⟩
  | .hbm, ⟨13, _⟩ => ⟨S32x8x1024x16, .f32⟩
  | .hbm, ⟨14, _⟩ => ⟨S32x8x1024x1024, .f32⟩
  | .hbm, ⟨15, _⟩ => ⟨S_, .f32⟩
  | .hbm, ⟨16, _⟩ => ⟨S32x8x1024, .f32⟩
  | .hbm, ⟨17, _⟩ => ⟨S_, .f32⟩
  | .hbm, ⟨18, _⟩ => ⟨S32x8x1024, .f32⟩
  | .hbm, ⟨19, _⟩ => ⟨S32x8x1024, .f32⟩
  | .hbm, ⟨20, _⟩ => ⟨S32x8x1024x1, .f32⟩
  | .hbm, ⟨21, _⟩ => ⟨S32x8x1024x1024, .f32⟩
  | .hbm, ⟨22, _⟩ => ⟨S32x8x1024x1024, .f32⟩
  | .hbm, ⟨23, _⟩ => ⟨S32x8x1024x1024, .f32⟩
  | .hbm, ⟨24, _⟩ => ⟨S_, .f32⟩
  | .hbm, ⟨25, _⟩ => ⟨S32x8x1024, .f32⟩
  | .hbm, ⟨26, _⟩ => ⟨S32x8x1024x1, .f32⟩
  | .hbm, ⟨27, _⟩ => ⟨S32x8x1024x1024, .f32⟩
  | .hbm, ⟨28, _⟩ => ⟨S32x8x1024x1024, .f32⟩
  | .hbm, ⟨29, _⟩ => ⟨S32x8x1024x16, .f32⟩
  | .hbm, ⟨30, _⟩ => ⟨S32x1024x8x16, .f32⟩
  | .hbm, ⟨31, _⟩ => ⟨S32x1024x128, .f32⟩
  | .hbm, ⟨32, _⟩ => ⟨S32x1024x128, .f32⟩
  | .hbm, ⟨33, _⟩ => ⟨S1x1x128, .f32⟩
  | .hbm, ⟨34, _⟩ => ⟨S32x1024x128, .f32⟩
  | .hbm, ⟨35, _⟩ => ⟨S32x1024x128, .f32⟩
  | _, _ => ⟨S32x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]

class Facts₀ : Prop where
  bcast_S384_S1x1x384_2 : S384.BroadcastsInDim S1x1x384 (![2] : Fin 1 → Fin S1x1x384.rank)
  bcast_S1x1x384_S32x1024x384_0_1_2 : S1x1x384.BroadcastsInDim S32x1024x384 (![0, 1, 2] : Fin 3 → Fin S32x1024x384.rank)
  shapeCasts_S32x1024x384_S32x1024x8x48 : S32x1024x384.ShapeCasts S32x1024x8x48
  transposes_S32x1024x8x48_S32x8x1024x48_0_2_1_3 : S32x1024x8x48.Transposes [0, 2, 1, 3] S32x8x1024x48
  slices_S32x8x1024x48_S32x8x1024x16_0_0_0_0 : S32x8x1024x48.Slices ![0, 0, 0, 0] S32x8x1024x16
  slices_S32x8x1024x48_S32x8x1024x16_0_0_0_16 : S32x8x1024x48.Slices ![0, 0, 0, 16] S32x8x1024x16
  slices_S32x8x1024x48_S32x8x1024x16_0_0_0_32 : S32x8x1024x48.Slices ![0, 0, 0, 32] S32x8x1024x16
  reducesTo_S32x8x1024x1024_S32x8x1024_d3 : S32x8x1024x1024.ReducesTo [3] S32x8x1024
  h_S_ : 0 < S_.numel
  bcast_S_S32x8x1024 : S_.BroadcastsInDim S32x8x1024 (![] : Fin 0 → Fin S32x8x1024.rank)
  bcast_S32x8x1024_S32x8x1024x1_0_1_2 : S32x8x1024.BroadcastsInDim S32x8x1024x1 (![0, 1, 2] : Fin 3 → Fin S32x8x1024x1.rank)
  bcast_S32x8x1024x1_S32x8x1024x1024_0_1_2_3 : S32x8x1024x1.BroadcastsInDim S32x8x1024x1024 (![0, 1, 2, 3] : Fin 4 → Fin S32x8x1024x1024.rank)
  transposes_S32x8x1024x16_S32x1024x8x16_0_2_1_3 : S32x8x1024x16.Transposes [0, 2, 1, 3] S32x1024x8x16
  shapeCasts_S32x1024x8x16_S32x1024x128 : S32x1024x8x16.ShapeCasts S32x1024x128
  bcast_S128_S1x1x128_2 : S128.BroadcastsInDim S1x1x128 (![2] : Fin 1 → Fin S1x1x128.rank)
  bcast_S1x1x128_S32x1024x128_0_1_2 : S1x1x128.BroadcastsInDim S32x1024x128 (![0, 1, 2] : Fin 3 → Fin S32x1024x128.rank)
  dot_S32x1024x128_S384x128_S32x1024x384_2_1_01_0_n_n_wf : DotDims.WF S32x1024x128 S384x128 S32x1024x384 [2] [1] [0, 1] [0] [] []
  dot_S32x8x1024x16_S32x8x1024x16_S32x8x1024x1024_3_3_2_2_01_01_wf : DotDims.WF S32x8x1024x16 S32x8x1024x16 S32x8x1024x1024 [3] [3] [2] [2] [0, 1] [0, 1]
  dot_S32x8x1024x1024_S32x8x1024x16_S32x8x1024x16_3_2_2_3_01_01_wf : DotDims.WF S32x8x1024x1024 S32x8x1024x16 S32x8x1024x16 [3] [2] [2] [3] [0, 1] [0, 1]
  dot_S32x1024x128_S128x128_S32x1024x128_2_1_01_0_n_n_wf : DotDims.WF S32x1024x128 S128x128 S32x1024x128 [2] [1] [0, 1] [0] [] []

variable [Facts₀]

def dot_S32x1024x128_S384x128_S32x1024x384_2_1_01_0_n_n : DotDims S32x1024x128 S384x128 S32x1024x384 where
  lhsContracting := [2]
  rhsContracting := [1]
  lhsNonContracting := [0, 1]
  rhsNonContracting := [0]
  lhsBatch := []
  rhsBatch := []
  wf := dot_S32x1024x128_S384x128_S32x1024x384_2_1_01_0_n_n_wf
def dot_S32x8x1024x16_S32x8x1024x16_S32x8x1024x1024_3_3_2_2_01_01 : DotDims S32x8x1024x16 S32x8x1024x16 S32x8x1024x1024 where
  lhsContracting := [3]
  rhsContracting := [3]
  lhsNonContracting := [2]
  rhsNonContracting := [2]
  lhsBatch := [0, 1]
  rhsBatch := [0, 1]
  wf := dot_S32x8x1024x16_S32x8x1024x16_S32x8x1024x1024_3_3_2_2_01_01_wf
def dot_S32x8x1024x1024_S32x8x1024x16_S32x8x1024x16_3_2_2_3_01_01 : DotDims S32x8x1024x1024 S32x8x1024x16 S32x8x1024x16 where
  lhsContracting := [3]
  rhsContracting := [2]
  lhsNonContracting := [2]
  rhsNonContracting := [3]
  lhsBatch := [0, 1]
  rhsBatch := [0, 1]
  wf := dot_S32x8x1024x1024_S32x8x1024x16_S32x8x1024x16_3_2_2_3_01_01_wf
def dot_S32x1024x128_S128x128_S32x1024x128_2_1_01_0_n_n : DotDims S32x1024x128 S128x128 S32x1024x128 where
  lhsContracting := [2]
  rhsContracting := [1]
  lhsNonContracting := [0, 1]
  rhsNonContracting := [0]
  lhsBatch := []
  rhsBatch := []
  wf := dot_S32x1024x128_S128x128_S32x1024x128_2_1_01_0_n_n_wf

class Facts : Prop extends Facts₀ where

variable [Facts]
-- ==== Proof.KData.lean ====
/-
  What the region of this program finds and what its body leaves, as definitions (no proof of a run here).

  `V` is a core's buffer contents when the region is entered (the launch memory after the host lines before it);
  `iblk` a window's block at a grid point read off its array there.  The body is straight-line: it loads the five input
  blocks whole, computes the fused projection, the eight heads' softmax-weighted value sums, lays them side by side as the
  context slab (`slabPay`, stored whole into the second output's buffer) and projects the slab with the fourth and fifth
  operands (`oPay`, stored whole into the first output's buffer).  So after the body each output buffer is the canon of ONE
  whole-block store (`out0_5`, `out0_6`), a function of the input blocks only, and the proof data `dats` records that.
-/
import proofs.«162198_j1477468750124_2_alg».proof.Proof.Gen.Kernel.Launch
import proofs.«162198_j1477468750124_2_alg».proof.Proof.Gen.Kernel.Skeleton
import proofs.«162198_j1477468750124_2_alg».proof.Proof.Gen.Kernel.Points
import Idealize.ShloMosaic.Lib.Pipeline.FrameBody
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ)

/-- Core `c`'s TensorCore buffer contents when the region is entered: the launch memory after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole block of an output window: the one rectangle both stores write through. -/
abbrev rO : Rect S1x1024x128 := Rect.unit (s := S1x1024x128) ![0, 0, 0] S1x1024x128.size inb_S1x1024x128_S1x1024x128_0_0_0

/-- The zero accumulator every head's value product starts from. -/
abbrev zacc : FVec F S1024x16 .f32 := constant S1024x16 .f32 0x00000000#32

/-- The context slab as the body stores it (a leading unit axis added), from the three blocks it depends on:
    the activations' block, the fused weight and the fused bias. -/
def slabPay (x0 : Vec F S1x1024x128 .f32) (x1 : Vec F S128x384 .f32) (x2 : Vec F S1x384 .f32) : FVec F S1x1024x128 .f32 :=
  k0_pay2 (k0_pay5 x0 x1 x2) (k0_pay8 (k0_pay6 x0 x1 x2) (k0_pay7 x0 x1 x2) zacc) (k0_pay9 (k0_pay4 x0 x1 x2))
    (k0_pay10 (k0_pay4 x0 x1 x2)) (k0_pay13 (k0_pay11 (k0_pay4 x0 x1 x2)) (k0_pay12 (k0_pay4 x0 x1 x2)) zacc)
    (k0_pay14 (k0_pay4 x0 x1 x2)) (k0_pay15 (k0_pay4 x0 x1 x2)) (k0_pay16 (k0_pay4 x0 x1 x2)) (k0_pay17 (k0_pay4 x0 x1 x2)) zacc

/-- The projected output as the body stores it, from all five input blocks. -/
def oPay (x0 : Vec F S1x1024x128 .f32) (x1 : Vec F S128x384 .f32) (x2 : Vec F S1x384 .f32)
    (x3 : Vec F S128x128 .f32) (x4 : Vec F S1x128 .f32) : FVec F S1x1024x128 .f32 :=
  k0_pay3 (k0_pay5 x0 x1 x2) (k0_pay8 (k0_pay6 x0 x1 x2) (k0_pay7 x0 x1 x2) zacc) (k0_pay9 (k0_pay4 x0 x1 x2))
    (k0_pay10 (k0_pay4 x0 x1 x2)) (k0_pay13 (k0_pay11 (k0_pay4 x0 x1 x2)) (k0_pay12 (k0_pay4 x0 x1 x2)) zacc)
    (k0_pay14 (k0_pay4 x0 x1 x2)) (k0_pay15 (k0_pay4 x0 x1 x2)) (k0_pay16 (k0_pay4 x0 x1 x2)) (k0_pay17 (k0_pay4 x0 x1 x2)) zacc
    x3 x4

/-- Window 5's staging buffer (the first result) after the body: its one whole-block store. -/
def out0_5 (x0 : Vec F S1x1024x128 .f32) (x1 : Vec F S128x384 .f32) (x2 : Vec F S1x384 .f32)
    (x3 : Vec F S128x128 .f32) (x4 : Vec F S1x128 .f32) : Vec F S1x1024x128 .f32 :=
  View.canon [⟨rO, oPay x0 x1 x2 x3 x4⟩]

/-- Window 6's staging buffer (the context slab) after the body: its one whole-block store. -/
def out0_6 (x0 : Vec F S1x1024x128 .f32) (x1 : Vec F S128x384 .f32) (x2 : Vec F S1x384 .f32) : Vec F S1x1024x128 .f32 :=
  View.canon [⟨rO, slabPay x0 x1 x2⟩]

/-- The proof data of the one pipeline on core `c`: the arrays as the region finds them; after the body at point `t`
    each input's buffer at its block and each output's at its store of the input blocks; the class's invariant; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
    | ⟨6, _⟩ => out0_6 (iblk m c 0 t) (iblk m c 1 t) (iblk m c 2 t)
  Φ _ := Pipeline.ΦA spec0 c
  q _ := fullShare
  owed _ := 0

/-- The proof data's arrays are the region-entry contents (projected, never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = out0_5 (iblk m c 0 t) (iblk m c 1 t) (iblk m c 2 t) (iblk m c 3 t) (iblk m c 4 t) := by dsimp only [dats]
theorem after0_6 (c : Dev nD) (t : Fin cfg0.N) : (dats m 0 c).after 6 t
    = out0_6 (iblk m c 0 t) (iblk m c 1 t) (iblk m c 2 t) := by dsimp only [dats]

end Cert.Kernel.Hand

end
-- ==== Proof.KBody.lean ====
/-
  The body of the one region, as a triple on whole staging buffers.

  The body reads its five input buffers whole and both of its output buffers whole (the values read from the outputs are
  never used), and writes each output buffer once, whole.  So the triple holds each input buffer at given contents before
  and after, each output buffer at SOME contents before, and after at the canon of its one whole store of the inputs'
  contents (`out0_5`, `out0_6`).  A load through the whole-shape rectangle at zero offsets reads the contents themselves,
  which is what turns the values the run names into `slabPay` and `oPay` of the contents.
-/
import proofs.«162198_j1477468750124_2_alg».proof.Proof.KData
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one whole-block store of an output buffer covers it. -/
theorem cover_rO (p0 : Vec F S1x1024x128 .f32) (y : S1x1024x128.Idx) :
    ∃ pc ∈ ([⟨rO, p0⟩] : List (View.Piece (Elt F) S1x1024x128 .f32)), y ∈ pc.1.set :=
  View.cover_of_tiled ([⟨rO, p0⟩] : List (View.Piece (Elt F) S1x1024x128 .f32)) S1x1024x128.size (by rfl) y

/-- A load through the whole-shape rectangle at zero offsets reads the contents, at each of the five input shapes. -/
theorem ld_x0 (X : Vec F S1x1024x128 .f32) :
    View.ld X (Rect.unit (s := S1x1024x128) ![0, 0, 0] S1x1024x128.size inb_S1x1024x128_S1x1024x128_0_0_0) = X :=
  View.ld_unit_zero (by funext a; fin_cases a <;> rfl) _ X
theorem ld_x1 (X : Vec F S128x384 .f32) :
    View.ld X (Rect.unit (s := S128x384) ![0, 0] S128x384.size inb_S128x384_S128x384_0_0) = X :=
  View.ld_unit_zero (by funext a; fin_cases a <;> rfl) _ X
theorem ld_x2 (X : Vec F S1x384 .f32) :
    View.ld X (Rect.unit (s := S1x384) ![0, 0] S1x384.size inb_S1x384_S1x384_0_0) = X :=
  View.ld_unit_zero (by funext a; fin_cases a <;> rfl) _ X
theorem ld_x3 (X : Vec F S128x128 .f32) :
    View.ld X (Rect.unit (s := S128x128) ![0, 0] S128x128.size inb_S128x128_S128x128_0_0) = X :=
  View.ld_unit_zero (by funext a; fin_cases a <;> rfl) _ X
theorem ld_x4 (X : Vec F S1x128 .f32) :
    View.ld X (Rect.unit (s := S1x128) ![0, 0] S1x128.size inb_S1x128_S1x128_0_0) = X :=
  View.ld_unit_zero (by funext a; fin_cases a <;> rfl) _ X

/-- The same for a load through a view of a buffer: it reads what the view reads. -/
theorem rd_x0 {κ : Kind} {sp : Space} (v : View sig κ sp S1x1024x128 .f32) (f : v.ty.Contents (Elt F)) :
    v.readAt (Elt F) (Rect.unit (s := S1x1024x128) ![0, 0, 0] S1x1024x128.size inb_S1x1024x128_S1x1024x128_0_0_0).toLoadRect f
      = v.read (Elt F) f := ld_x0 (v.read (Elt F) f)
theorem rd_x1 {κ : Kind} {sp : Space} (v : View sig κ sp S128x384 .f32) (f : v.ty.Contents (Elt F)) :
    v.readAt (Elt F) (Rect.unit (s := S128x384) ![0, 0] S128x384.size inb_S128x384_S128x384_0_0).toLoadRect f
      = v.read (Elt F) f := ld_x1 (v.read (Elt F) f)
theorem rd_x2 {κ : Kind} {sp : Space} (v : View sig κ sp S1x384 .f32) (f : v.ty.Contents (Elt F)) :
    v.readAt (Elt F) (Rect.unit (s := S1x384) ![0, 0] S1x384.size inb_S1x384_S1x384_0_0).toLoadRect f
      = v.read (Elt F) f := ld_x2 (v.read (Elt F) f)
theorem rd_x3 {κ : Kind} {sp : Space} (v : View sig κ sp S128x128 .f32) (f : v.ty.Contents (Elt F)) :
    v.readAt (Elt F) (Rect.unit (s := S128x128) ![0, 0] S128x128.size inb_S128x128_S128x128_0_0).toLoadRect f
      = v.read (Elt F) f := ld_x3 (v.read (Elt F) f)
theorem rd_x4 {κ : Kind} {sp : Space} (v : View sig κ sp S1x128 .f32) (f : v.ty.Contents (Elt F)) :
    v.readAt (Elt F) (Rect.unit (s := S1x128) ![0, 0] S1x128.size inb_S1x128_S1x128_0_0).toLoadRect f
      = v.read (Elt F) f := ld_x4 (v.read (Elt F) f)

/-- The stored payloads depend on the loaded values only: equal loaded values leave equal canons. -/
theorem out0_6_of (A0 A0' : Vec F S1x1024x128 .f32) (A1 A1' : Vec F S128x384 .f32) (A2 A2' : Vec F S1x384 .f32)
    (h0 : A0 = A0') (h1 : A1 = A1') (h2 : A2 = A2') :
    View.canon [(⟨rO, slabPay A0 A1 A2⟩ : View.Piece (Elt F) S1x1024x128 .f32)] = out0_6 A0' A1' A2' := by
  subst h0 h1 h2; rfl
theorem out0_5_of (A0 A0' : Vec F S1x1024x128 .f32) (A1 A1' : Vec F S128x384 .f32) (A2 A2' : Vec F S1x384 .f32)
    (A3 A3' : Vec F S128x128 .f32) (A4 A4' : Vec F S1x128 .f32)
    (h0 : A0 = A0') (h1 : A1 = A1') (h2 : A2 = A2') (h3 : A3 = A3') (h4 : A4 = A4') :
    View.canon [(⟨rO, oPay A0 A1 A2 A3 A4⟩ : View.Piece (Elt F) S1x1024x128 .f32)] = out0_5 A0' A1' A2' A3' A4' := by
  subst h0 h1 h2 h3 h4; rfl

set_option maxHeartbeats 1000000 in
/-- The body on whole staging buffers: the inputs' at contents `x0 … x4` and the outputs' at anything, it runs to the
    continuation holding the inputs' as they were and the outputs' at `out0_5`, `out0_6` of the inputs' contents. -/
theorem sound_kernel (c : Dev nD) (E : Set ℕ) (i : grid0.Coords)
    (arg1 : Memref sig .tc .vmem S1x1024x128 .f32) (harg1 : arg1.IsWhole)
    (arg2 : Memref sig .tc .vmem S128x384 .f32) (harg2 : arg2.IsWhole)
    (arg3 : Memref sig .tc .vmem S1x384 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S1x1024x128 .f32) (harg6 : arg6.IsWhole)
    (arg7 : Memref sig .tc .vmem S1x1024x128 .f32) (harg7 : arg7.IsWhole)
    (x0 : Vec F S1x1024x128 .f32) (x1 : Vec F S128x384 .f32) (x2 : Vec F S1x384 .f32)
    (x3 : Vec F S128x128 .f32) (x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out0_5 x0 x1 x2 x3 x4)
            ∗ owns (c : Thread nD τ) arg7 fullShare (out0_6 x0 x1 x2)) -∗ K ⟨⟩))
      ⊢ wp frame (wpE (defs₀ (F := F)) Variants.none c none) E
          (cc0__fused_kernel i arg1 harg1 arg2 harg2 arg3 harg3 arg4 harg4 arg5 harg5 arg6 harg6 arg7 harg7) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩,
    ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover_rO _)).trans ?_
    sl_unfold_run_names
    refine out0_5_of _ _ _ _ _ _ _ _ _ _ ?_ ?_ ?_ ?_ ?_
    · exact rd_x0 _ _
    · exact rd_x1 _ _
    · exact rd_x2 _ _
    · exact rd_x3 _ _
    · exact rd_x4 _ _
  iexists _; isplitr
  swap; · iexact H6
  ipureintro
  refine (View.read_writes_eq_canon _ _ _ (cover_rO _)).trans ?_
  sl_unfold_run_names
  refine out0_6_of _ _ _ _ _ _ ?_ ?_ ?_
  · exact rd_x0 _ _
  · exact rd_x1 _ _
  · exact rd_x2 _ _

end Cert.Kernel.Hand

end
-- ==== Proof.KFrame.lean ====
/-
  The run of the program around its one region, and what it leaves in the five argument arrays.

  The program is: host lines (they build the regrouped weight and bias, the transposed output weight and the output bias as
  a row), the region over its 32 grid points, and two host lines (they re-lay the context slab head by head).  No host line
  before the region writes an argument array, so the region finds the arguments as launched.  Each input window's buffer
  holds the window's block at every point, whether or not it was fetched there (the four whole-array windows are fetched at
  the first point only, and their block never moves); with that the body's triple is the body obligation at every point.
  The library's frame run then leaves every array of the pipeline at what the proof data computes, and every other
  unscoped buffer as the two later lines leave it.  The activations' array is an input of the pipeline, so it ends at its
  entry contents; the other four arguments are staged by no window and written by no later line: all five end as launched.
-/
import proofs.«162198_j1477468750124_2_alg».proof.Proof.KBody
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The host lines allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines before the region, the region, and the host lines after it: it reduces to the region
    continued by the later lines, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch unscoped TensorCore buffers only, and with nothing prefetched every such buffer is an
    array of the pipeline or bypasses the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays before and after the region -/

/-- No host line before the region writes the argument `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes the argument `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes the argument `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes the argument `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes the argument `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg1`, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line after the region writes `main_arg2`, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line after the region writes `main_arg3`, and it is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line after the region writes `main_arg4`, and it is no array of the pipeline: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The input windows' buffers hold their blocks

An input window's current buffer holds the window's block at every point, fetched there or not: unfetched, the block
index has not moved since the point before, and the body left the block in place. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_0 (c : Dev nD) (t : Fin cfg0.N) (d) : (dats m 0 c).before 0 t d = iblk m c 0 t :=
  before0_0_of m (dats m 0 c) (A_eq m c 0) (after0_0 m c) t d

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_1 (c : Dev nD) (t : Fin cfg0.N) (d) : (dats m 0 c).before 1 t d = iblk m c 1 t :=
  before0_1_of m (dats m 0 c) (A_eq m c 1) (after0_1 m c) t d

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_2 (c : Dev nD) (t : Fin cfg0.N) (d) : (dats m 0 c).before 2 t d = iblk m c 2 t :=
  before0_2_of m (dats m 0 c) (A_eq m c 2) (after0_2 m c) t d

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_3 (c : Dev nD) (t : Fin cfg0.N) (d) : (dats m 0 c).before 3 t d = iblk m c 3 t :=
  before0_3_of m (dats m 0 c) (A_eq m c 3) (after0_3 m c) t d

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies at the blocks; the
    invariant and the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any launch memory with zero counters, every weakly fair execution of the program on the TensorCores terminates,
    and every final state has each array of the pipeline at what the proof data computes and every other unscoped buffer
    as the lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-! ## The argument arrays end as launched -/

/-- In any final state of the run, each argument array holds its launch contents: the activations' array is window 0's,
    an input, so it ends at its entry contents; the other four are unscoped buffers no window stages, left by the lines
    after the region as the region found them. -/
theorem kept_of_post (r) (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (((dats m 0 c).arrAt_in 0 rfl _).trans ((A_eq m c 0).trans (V_main_arg0 m c))),
   ((h c).2 main_arg1 (Pipeline.mem_restRefs_of main_arg1 (by decide) (by decide))).trans (W_main_arg1 m (dats m) c),
   ((h c).2 main_arg2 (Pipeline.mem_restRefs_of main_arg2 (by decide) (by decide))).trans (W_main_arg2 m (dats m) c),
   ((h c).2 main_arg3 (Pipeline.mem_restRefs_of main_arg3 (by decide) (by decide))).trans (W_main_arg3 m (dats m) c),
   ((h c).2 main_arg4 (Pipeline.mem_restRefs_of main_arg4 (by decide) (by decide))).trans (W_main_arg4 m (dats m) c)⟩

/-- The frame: the program runs, and its five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => kept_of_post m r h c) (run_main m ρ)

end Cert.Kernel.Hand

end
-- ==== Proof.KIData.lean ====
/-
  What the region of this program finds and what its body leaves, as definitions (no proof of a run here).

  `V` is a core's buffer contents when the region is entered (the launch memory after the host lines before it);
  `iblk` a window's block at a grid point read off its array there.  The body is straight-line: it loads the five input
  blocks whole, computes the fused projection, the eight heads' softmax-weighted value sums, lays them side by side as the
  context slab (`slabPay`, stored whole into the second output's buffer) and projects the slab with the fourth and fifth
  operands (`oPay`, stored whole into the first output's buffer).  So after the body each output buffer is the canon of ONE
  whole-block store (`out0_5`, `out0_6`), a function of the input blocks only, and the proof data `dats` records that.
-/
import proofs.«162198_j1477468750124_2_alg».proof.Proof.Gen.KernelIdeal.Launch
import proofs.«162198_j1477468750124_2_alg».proof.Proof.Gen.KernelIdeal.Skeleton
import proofs.«162198_j1477468750124_2_alg».proof.Proof.Gen.KernelIdeal.Points
import Idealize.ShloMosaic.Lib.Pipeline.FrameBody
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ)

/-- Core `c`'s TensorCore buffer contents when the region is entered: the launch memory after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole block of an output window: the one rectangle both stores write through. -/
abbrev rO : Rect S1x1024x128 := Rect.unit (s := S1x1024x128) ![0, 0, 0] S1x1024x128.size inb_S1x1024x128_S1x1024x128_0_0_0

/-- The zero accumulator every head's value product starts from. -/
abbrev zacc : FVec F S1024x16 .f32 := constant S1024x16 .f32 0x00000000#32

/-- The context slab as the body stores it (a leading unit axis added), from the three blocks it depends on:
    the activations' block, the fused weight and the fused bias. -/
def slabPay (x0 : Vec F S1x1024x128 .f32) (x1 : Vec F S128x384 .f32) (x2 : Vec F S1x384 .f32) : FVec F S1x1024x128 .f32 :=
  k0_pay2 (k0_pay5 x0 x1 x2) (k0_pay8 (k0_pay6 x0 x1 x2) (k0_pay7 x0 x1 x2) zacc) (k0_pay9 (k0_pay4 x0 x1 x2))
    (k0_pay10 (k0_pay4 x0 x1 x2)) (k0_pay13 (k0_pay11 (k0_pay4 x0 x1 x2)) (k0_pay12 (k0_pay4 x0 x1 x2)) zacc)
    (k0_pay14 (k0_pay4 x0 x1 x2)) (k0_pay15 (k0_pay4 x0 x1 x2)) (k0_pay16 (k0_pay4 x0 x1 x2)) (k0_pay17 (k0_pay4 x0 x1 x2)) zacc

/-- The projected output as the body stores it, from all five input blocks. -/
def oPay (x0 : Vec F S1x1024x128 .f32) (x1 : Vec F S128x384 .f32) (x2 : Vec F S1x384 .f32)
    (x3 : Vec F S128x128 .f32) (x4 : Vec F S1x128 .f32) : FVec F S1x1024x128 .f32 :=
  k0_pay3 (k0_pay5 x0 x1 x2) (k0_pay8 (k0_pay6 x0 x1 x2) (k0_pay7 x0 x1 x2) zacc) (k0_pay9 (k0_pay4 x0 x1 x2))
    (k0_pay10 (k0_pay4 x0 x1 x2)) (k0_pay13 (k0_pay11 (k0_pay4 x0 x1 x2)) (k0_pay12 (k0_pay4 x0 x1 x2)) zacc)
    (k0_pay14 (k0_pay4 x0 x1 x2)) (k0_pay15 (k0_pay4 x0 x1 x2)) (k0_pay16 (k0_pay4 x0 x1 x2)) (k0_pay17 (k0_pay4 x0 x1 x2)) zacc
    x3 x4

/-- Window 5's staging buffer (the first result) after the body: its one whole-block store. -/
def out0_5 (x0 : Vec F S1x1024x128 .f32) (x1 : Vec F S128x384 .f32) (x2 : Vec F S1x384 .f32)
    (x3 : Vec F S128x128 .f32) (x4 : Vec F S1x128 .f32) : Vec F S1x1024x128 .f32 :=
  View.canon [⟨rO, oPay x0 x1 x2 x3 x4⟩]

/-- Window 6's staging buffer (the context slab) after the body: its one whole-block store. -/
def out0_6 (x0 : Vec F S1x1024x128 .f32) (x1 : Vec F S128x384 .f32) (x2 : Vec F S1x384 .f32) : Vec F S1x1024x128 .f32 :=
  View.canon [⟨rO, slabPay x0 x1 x2⟩]

/-- The proof data of the one pipeline on core `c`: the arrays as the region finds them; after the body at point `t`
    each input's buffer at its block and each output's at its store of the input blocks; the class's invariant; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
    | ⟨6, _⟩ => out0_6 (iblk m c 0 t) (iblk m c 1 t) (iblk m c 2 t)
  Φ _ := Pipeline.ΦA spec0 c
  q _ := fullShare
  owed _ := 0

/-- The proof data's arrays are the region-entry contents (projected, never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = out0_5 (iblk m c 0 t) (iblk m c 1 t) (iblk m c 2 t) (iblk m c 3 t) (iblk m c 4 t) := by dsimp only [dats]
theorem after0_6 (c : Dev nD) (t : Fin cfg0.N) : (dats m 0 c).after 6 t
    = out0_6 (iblk m c 0 t) (iblk m c 1 t) (iblk m c 2 t) := by dsimp only [dats]

end Cert.KernelIdeal.Hand

end
-- ==== Proof.KIBody.lean ====
/-
  The body of the one region, as a triple on whole staging buffers.

  The body reads its five input buffers whole and both of its output buffers whole (the values read from the outputs are
  never used), and writes each output buffer once, whole.  So the triple holds each input buffer at given contents before
  and after, each output buffer at SOME contents before, and after at the canon of its one whole store of the inputs'
  contents (`out0_5`, `out0_6`).  A load through the whole-shape rectangle at zero offsets reads the contents themselves,
  which is what turns the values the run names into `slabPay` and `oPay` of the contents.
-/
import proofs.«162198_j1477468750124_2_alg».proof.Proof.KIData
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one whole-block store of an output buffer covers it. -/
theorem cover_rO (p0 : Vec F S1x1024x128 .f32) (y : S1x1024x128.Idx) :
    ∃ pc ∈ ([⟨rO, p0⟩] : List (View.Piece (Elt F) S1x1024x128 .f32)), y ∈ pc.1.set :=
  View.cover_of_tiled ([⟨rO, p0⟩] : List (View.Piece (Elt F) S1x1024x128 .f32)) S1x1024x128.size (by rfl) y

/-- A load through the whole-shape rectangle at zero offsets reads the contents, at each of the five input shapes. -/
theorem ld_x0 (X : Vec F S1x1024x128 .f32) :
    View.ld X (Rect.unit (s := S1x1024x128) ![0, 0, 0] S1x1024x128.size inb_S1x1024x128_S1x1024x128_0_0_0) = X :=
  View.ld_unit_zero (by funext a; fin_cases a <;> rfl) _ X
theorem ld_x1 (X : Vec F S128x384 .f32) :
    View.ld X (Rect.unit (s := S128x384) ![0, 0] S128x384.size inb_S128x384_S128x384_0_0) = X :=
  View.ld_unit_zero (by funext a; fin_cases a <;> rfl) _ X
theorem ld_x2 (X : Vec F S1x384 .f32) :
    View.ld X (Rect.unit (s := S1x384) ![0, 0] S1x384.size inb_S1x384_S1x384_0_0) = X :=
  View.ld_unit_zero (by funext a; fin_cases a <;> rfl) _ X
theorem ld_x3 (X : Vec F S128x128 .f32) :
    View.ld X (Rect.unit (s := S128x128) ![0, 0] S128x128.size inb_S128x128_S128x128_0_0) = X :=
  View.ld_unit_zero (by funext a; fin_cases a <;> rfl) _ X
theorem ld_x4 (X : Vec F S1x128 .f32) :
    View.ld X (Rect.unit (s := S1x128) ![0, 0] S1x128.size inb_S1x128_S1x128_0_0) = X :=
  View.ld_unit_zero (by funext a; fin_cases a <;> rfl) _ X

/-- The same for a load through a view of a buffer: it reads what the view reads. -/
theorem rd_x0 {κ : Kind} {sp : Space} (v : View sig κ sp S1x1024x128 .f32) (f : v.ty.Contents (Elt F)) :
    v.readAt (Elt F) (Rect.unit (s := S1x1024x128) ![0, 0, 0] S1x1024x128.size inb_S1x1024x128_S1x1024x128_0_0_0).toLoadRect f
      = v.read (Elt F) f := ld_x0 (v.read (Elt F) f)
theorem rd_x1 {κ : Kind} {sp : Space} (v : View sig κ sp S128x384 .f32) (f : v.ty.Contents (Elt F)) :
    v.readAt (Elt F) (Rect.unit (s := S128x384) ![0, 0] S128x384.size inb_S128x384_S128x384_0_0).toLoadRect f
      = v.read (Elt F) f := ld_x1 (v.read (Elt F) f)
theorem rd_x2 {κ : Kind} {sp : Space} (v : View sig κ sp S1x384 .f32) (f : v.ty.Contents (Elt F)) :
    v.readAt (Elt F) (Rect.unit (s := S1x384) ![0, 0] S1x384.size inb_S1x384_S1x384_0_0).toLoadRect f
      = v.read (Elt F) f := ld_x2 (v.read (Elt F) f)
theorem rd_x3 {κ : Kind} {sp : Space} (v : View sig κ sp S128x128 .f32) (f : v.ty.Contents (Elt F)) :
    v.readAt (Elt F) (Rect.unit (s := S128x128) ![0, 0] S128x128.size inb_S128x128_S128x128_0_0).toLoadRect f
      = v.read (Elt F) f := ld_x3 (v.read (Elt F) f)
theorem rd_x4 {κ : Kind} {sp : Space} (v : View sig κ sp S1x128 .f32) (f : v.ty.Contents (Elt F)) :
    v.readAt (Elt F) (Rect.unit (s := S1x128) ![0, 0] S1x128.size inb_S1x128_S1x128_0_0).toLoadRect f
      = v.read (Elt F) f := ld_x4 (v.read (Elt F) f)

/-- The stored payloads depend on the loaded values only: equal loaded values leave equal canons. -/
theorem out0_6_of (A0 A0' : Vec F S1x1024x128 .f32) (A1 A1' : Vec F S128x384 .f32) (A2 A2' : Vec F S1x384 .f32)
    (h0 : A0 = A0') (h1 : A1 = A1') (h2 : A2 = A2') :
    View.canon [(⟨rO, slabPay A0 A1 A2⟩ : View.Piece (Elt F) S1x1024x128 .f32)] = out0_6 A0' A1' A2' := by
  subst h0 h1 h2; rfl
theorem out0_5_of (A0 A0' : Vec F S1x1024x128 .f32) (A1 A1' : Vec F S128x384 .f32) (A2 A2' : Vec F S1x384 .f32)
    (A3 A3' : Vec F S128x128 .f32) (A4 A4' : Vec F S1x128 .f32)
    (h0 : A0 = A0') (h1 : A1 = A1') (h2 : A2 = A2') (h3 : A3 = A3') (h4 : A4 = A4') :
    View.canon [(⟨rO, oPay A0 A1 A2 A3 A4⟩ : View.Piece (Elt F) S1x1024x128 .f32)] = out0_5 A0' A1' A2' A3' A4' := by
  subst h0 h1 h2 h3 h4; rfl

set_option maxHeartbeats 1000000 in
/-- The body on whole staging buffers: the inputs' at contents `x0 … x4` and the outputs' at anything, it runs to the
    continuation holding the inputs' as they were and the outputs' at `out0_5`, `out0_6` of the inputs' contents. -/
theorem sound_kernel (c : Dev nD) (E : Set ℕ) (i : grid0.Coords)
    (arg1 : Memref sig .tc .vmem S1x1024x128 .f32) (harg1 : arg1.IsWhole)
    (arg2 : Memref sig .tc .vmem S128x384 .f32) (harg2 : arg2.IsWhole)
    (arg3 : Memref sig .tc .vmem S1x384 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S1x1024x128 .f32) (harg6 : arg6.IsWhole)
    (arg7 : Memref sig .tc .vmem S1x1024x128 .f32) (harg7 : arg7.IsWhole)
    (x0 : Vec F S1x1024x128 .f32) (x1 : Vec F S128x384 .f32) (x2 : Vec F S1x384 .f32)
    (x3 : Vec F S128x128 .f32) (x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out0_5 x0 x1 x2 x3 x4)
            ∗ owns (c : Thread nD τ) arg7 fullShare (out0_6 x0 x1 x2)) -∗ K ⟨⟩))
      ⊢ wp frame (wpE (defs₀ (F := F)) Variants.none c none) E
          (cc0__fused_kernel i arg1 harg1 arg2 harg2 arg3 harg3 arg4 harg4 arg5 harg5 arg6 harg6 arg7 harg7) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩,
    ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover_rO _)).trans ?_
    sl_unfold_run_names
    refine out0_5_of _ _ _ _ _ _ _ _ _ _ ?_ ?_ ?_ ?_ ?_
    · exact rd_x0 _ _
    · exact rd_x1 _ _
    · exact rd_x2 _ _
    · exact rd_x3 _ _
    · exact rd_x4 _ _
  iexists _; isplitr
  swap; · iexact H6
  ipureintro
  refine (View.read_writes_eq_canon _ _ _ (cover_rO _)).trans ?_
  sl_unfold_run_names
  refine out0_6_of _ _ _ _ _ _ ?_ ?_ ?_
  · exact rd_x0 _ _
  · exact rd_x1 _ _
  · exact rd_x2 _ _

end Cert.KernelIdeal.Hand

end
-- ==== Proof.KIFrame.lean ====
/-
  The run of the program around its one region, and what it leaves in the five argument arrays.

  The program is: host lines (they build the regrouped weight and bias, the transposed output weight and the output bias as
  a row), the region over its 32 grid points, and two host lines (they re-lay the context slab head by head).  No host line
  before the region writes an argument array, so the region finds the arguments as launched.  Each input window's buffer
  holds the window's block at every point, whether or not it was fetched there (the four whole-array windows are fetched at
  the first point only, and their block never moves); with that the body's triple is the body obligation at every point.
  The library's frame run then leaves every array of the pipeline at what the proof data computes, and every other
  unscoped buffer as the two later lines leave it.  The activations' array is an input of the pipeline, so it ends at its
  entry contents; the other four arguments are staged by no window and written by no later line: all five end as launched.
-/
import proofs.«162198_j1477468750124_2_alg».proof.Proof.KIBody
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The host lines allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines before the region, the region, and the host lines after it: it reduces to the region
    continued by the later lines, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch unscoped TensorCore buffers only, and with nothing prefetched every such buffer is an
    array of the pipeline or bypasses the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays before and after the region -/

/-- No host line before the region writes the argument `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes the argument `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes the argument `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes the argument `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes the argument `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg1`, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line after the region writes `main_arg2`, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line after the region writes `main_arg3`, and it is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line after the region writes `main_arg4`, and it is no array of the pipeline: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The input windows' buffers hold their blocks

An input window's current buffer holds the window's block at every point, fetched there or not: unfetched, the block
index has not moved since the point before, and the body left the block in place. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_0 (c : Dev nD) (t : Fin cfg0.N) (d) : (dats m 0 c).before 0 t d = iblk m c 0 t :=
  before0_0_of m (dats m 0 c) (A_eq m c 0) (after0_0 m c) t d

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_1 (c : Dev nD) (t : Fin cfg0.N) (d) : (dats m 0 c).before 1 t d = iblk m c 1 t :=
  before0_1_of m (dats m 0 c) (A_eq m c 1) (after0_1 m c) t d

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_2 (c : Dev nD) (t : Fin cfg0.N) (d) : (dats m 0 c).before 2 t d = iblk m c 2 t :=
  before0_2_of m (dats m 0 c) (A_eq m c 2) (after0_2 m c) t d

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_3 (c : Dev nD) (t : Fin cfg0.N) (d) : (dats m 0 c).before 3 t d = iblk m c 3 t :=
  before0_3_of m (dats m 0 c) (A_eq m c 3) (after0_3 m c) t d

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies at the blocks; the
    invariant and the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any launch memory with zero counters, every weakly fair execution of the program on the TensorCores terminates,
    and every final state has each array of the pipeline at what the proof data computes and every other unscoped buffer
    as the lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-! ## The argument arrays end as launched -/

/-- In any final state of the run, each argument array holds its launch contents: the activations' array is window 0's,
    an input, so it ends at its entry contents; the other four are unscoped buffers no window stages, left by the lines
    after the region as the region found them. -/
theorem kept_of_post (r) (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (((dats m 0 c).arrAt_in 0 rfl _).trans ((A_eq m c 0).trans (V_main_arg0 m c))),
   ((h c).2 main_arg1 (Pipeline.mem_restRefs_of main_arg1 (by decide) (by decide))).trans (W_main_arg1 m (dats m) c),
   ((h c).2 main_arg2 (Pipeline.mem_restRefs_of main_arg2 (by decide) (by decide))).trans (W_main_arg2 m (dats m) c),
   ((h c).2 main_arg3 (Pipeline.mem_restRefs_of main_arg3 (by decide) (by decide))).trans (W_main_arg3 m (dats m) c),
   ((h c).2 main_arg4 (Pipeline.mem_restRefs_of main_arg4 (by decide) (by decide))).trans (W_main_arg4 m (dats m) c)⟩

/-- The frame: the program runs, and its five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => kept_of_post m r h c) (run_main m ρ)

end Cert.KernelIdeal.Hand

end
-- ==== Proof.Spec.lean ====
/-
  The layer both programs compute, written once on the extended reals as functions of coordinates.

  The core is stated over three LANE functions `Q K V : head → row → lane → EReal` (eight heads, 1024 rows, sixteen lanes):
  head `h`'s logit of query row `s` against key row `t` is the sum over the lanes of `Q h s d * K h t d`; a row of
  logits is shifted by its maximum (a fold of `max` from the word that denotes −∞), exponentiated, and divided by the row's
  sum (the exact quotient of the extended reals); the head's output is that weight matrix times the value rows.  The context
  slab puts head `j / 16`, lane `j % 16` at column `j`; the output is `ctx Woᵀ + bo`.  No scale factor appears on either
  side, and the two float words (−∞ for the fold, 0 for the sums) are the same words on both sides, so neither is ever evaluated.

  The two programs differ only in where the lanes sit among the 384 columns of the fused projection `x Wᵀ + b`: the reference
  keeps the weight's own row order (head `h` at rows `48 h + d`, `48 h + 16 + d`, `48 h + 32 + d`: `qcol`, `kcol`,
  `vcol`), the kernel regroups the rows as all queries, all keys, all values (`16 h + d`, `128 + 16 h + d`,
  `256 + 16 h + d`: `qcolF`, `kcolF`, `vcolF`), row `c` of its regrouped weight being row `fusedRow c` of the original.
-/
import Idealize.ShloMosaic.PureOps.Ideal
import Idealize.ShloMosaic.Lib.ValueIdx

noncomputable section

namespace Cert.Attn

open Idealize.ShloMosaic Idealize.ShloMosaic.ValueIdx

/-- The word both programs start a row maximum from (it denotes −∞; never evaluated). -/
abbrev ninf : EReal := Ideal.ofBits .f32 0xFF800000#32

/-- Query, key or value lanes: head, row, lane. -/
abbrev Lanes := Fin 8 → Fin 1024 → Fin 16 → EReal

/-- Head `h`'s logit of query row `s` against key row `t`. -/
def logit (Q K : Lanes) (h : Fin 8) (s t : Fin 1024) : EReal := ∑ d : Fin 16, Q h s d * K h t d

/-- The maximum of a row of logits, as the fold of `max` from the −∞ word over the key rows. -/
def rowMax (Q K : Lanes) (h : Fin 8) (s : Fin 1024) : EReal :=
  (Finset.univ : Finset (Fin 1024)).fold max ninf (fun t => logit Q K h s t)

/-- The shifted exponential. -/
def pexp (Q K : Lanes) (h : Fin 8) (s t : Fin 1024) : EReal := Ideal.exp (logit Q K h s t - rowMax Q K h s)

/-- The softmax weight: the shifted exponential over its row's sum. -/
def wgt (Q K : Lanes) (h : Fin 8) (s t : Fin 1024) : EReal :=
  Ideal.div (pexp Q K h s t) (∑ t' : Fin 1024, pexp Q K h s t')

/-- Head `h`'s output at query row `s`, lane `d`. -/
def headOut (Q K V : Lanes) (h : Fin 8) (s : Fin 1024) (d : Fin 16) : EReal := ∑ t : Fin 1024, wgt Q K h s t * V h t d

/-- The context slab: column `j` is head `j / 16`, lane `j % 16`. -/
def ctx (Q K V : Lanes) (s : Fin 1024) (j : Fin 128) : EReal :=
  headOut Q K V ⟨j.val / 16, by have := j.isLt; omega⟩ s ⟨j.val % 16, Nat.mod_lt _ (by decide)⟩

/-- The output projection `(ctx Woᵀ + bo)[s, e]`, `Wo e j` the weight of context column `j` in output column `e`. -/
def outRow (Q K V : Lanes) (Wo : Fin 128 → Fin 128 → EReal) (bo : Fin 128 → EReal) (s : Fin 1024) (e : Fin 128) : EReal :=
  (∑ j : Fin 128, ctx Q K V s j * Wo e j) + bo e

/-- The lanes of a projected batch row `P` (1024 rows, 384 columns) at the columns `col`. -/
def lanesOf (P : Fin 1024 → Fin 384 → EReal) (col : Fin 8 → Fin 16 → Fin 384) : Lanes := fun h s d => P s (col h d)

/-! ## The reference's column order -/

def qcol (h : Fin 8) (d : Fin 16) : Fin 384 := ⟨48 * h.val + d.val, by have := h.isLt; have := d.isLt; omega⟩
def kcol (h : Fin 8) (d : Fin 16) : Fin 384 := ⟨48 * h.val + 16 + d.val, by have := h.isLt; have := d.isLt; omega⟩
def vcol (h : Fin 8) (d : Fin 16) : Fin 384 := ⟨48 * h.val + 32 + d.val, by have := h.isLt; have := d.isLt; omega⟩

/-- The fused projection of one batch row: `(x Wᵀ + b)[s, e]`. -/
def proj (x : Fin 1024 → Fin 128 → EReal) (W : Fin 384 → Fin 128 → EReal) (bias : Fin 384 → EReal)
    (s : Fin 1024) (e : Fin 384) : EReal :=
  (∑ d : Fin 128, x s d * W e d) + bias e

abbrev SX : Shape := ⟨3, ![32, 1024, 128]⟩
abbrev SW : Shape := ⟨2, ![384, 128]⟩
abbrev SB : Shape := ⟨1, ![384]⟩
abbrev SWo : Shape := ⟨2, ![128, 128]⟩
abbrev SBo : Shape := ⟨1, ![128]⟩
abbrev SA : Shape := ⟨4, ![32, 8, 1024, 16]⟩

/-- Batch row `b`'s fused projection, from the argument arrays. -/
def Pb (x0 : SX.Idx → EReal) (x1 : SW.Idx → EReal) (x2 : SB.Idx → EReal) (b : Fin 32) : Fin 1024 → Fin 384 → EReal :=
  proj (fun s d => x0 (ix3 b s d)) (fun e d => x1 (ix2 e d)) (fun e => x2 (ix1 e))

/-- The context slab `[32, 1024, 128]` (the kernel's second output before the host re-lays it). -/
def G_slab (x0 : SX.Idx → EReal) (x1 : SW.Idx → EReal) (x2 : SB.Idx → EReal) : SX.Idx → EReal := fun i =>
  ctx (lanesOf (Pb x0 x1 x2 ⟨(i 0).val, (i 0).isLt⟩) qcol) (lanesOf (Pb x0 x1 x2 ⟨(i 0).val, (i 0).isLt⟩) kcol)
    (lanesOf (Pb x0 x1 x2 ⟨(i 0).val, (i 0).isLt⟩) vcol) ⟨(i 1).val, (i 1).isLt⟩ ⟨(i 2).val, (i 2).isLt⟩

/-- The first result, `o : [32, 1024, 128]`. -/
def G_o (x0 : SX.Idx → EReal) (x1 : SW.Idx → EReal) (x2 : SB.Idx → EReal) (x3 : SWo.Idx → EReal) (x4 : SBo.Idx → EReal) :
    SX.Idx → EReal := fun i =>
  outRow (lanesOf (Pb x0 x1 x2 ⟨(i 0).val, (i 0).isLt⟩) qcol) (lanesOf (Pb x0 x1 x2 ⟨(i 0).val, (i 0).isLt⟩) kcol)
    (lanesOf (Pb x0 x1 x2 ⟨(i 0).val, (i 0).isLt⟩) vcol) (fun e j => x3 (ix2 e j)) (fun e => x4 (ix1 e))
    ⟨(i 1).val, (i 1).isLt⟩ ⟨(i 2).val, (i 2).isLt⟩

/-- The second result, the per-head outputs `[32, 8, 1024, 16]`. -/
def G_attn (x0 : SX.Idx → EReal) (x1 : SW.Idx → EReal) (x2 : SB.Idx → EReal) : SA.Idx → EReal := fun i =>
  headOut (lanesOf (Pb x0 x1 x2 ⟨(i 0).val, (i 0).isLt⟩) qcol) (lanesOf (Pb x0 x1 x2 ⟨(i 0).val, (i 0).isLt⟩) kcol)
    (lanesOf (Pb x0 x1 x2 ⟨(i 0).val, (i 0).isLt⟩) vcol) ⟨(i 1).val, (i 1).isLt⟩ ⟨(i 2).val, (i 2).isLt⟩ ⟨(i 3).val, (i 3).isLt⟩

/-- The per-head outputs are the slab re-laid: head `h`, lane `d` sits at column `16 h + d`. -/
theorem G_attn_eq_slab (x0 : SX.Idx → EReal) (x1 : SW.Idx → EReal) (x2 : SB.Idx → EReal)
    (b : Fin 32) (h : Fin 8) (s : Fin 1024) (d : Fin 16) :
    G_attn x0 x1 x2 (ix4 b h s d)
      = G_slab x0 x1 x2 (ix3 b s (⟨16 * h.val + d.val, by have := h.isLt; have := d.isLt; omega⟩ : Fin 128)) := by
  have hh : (16 * h.val + d.val) / 16 = h.val := by have := d.isLt; omega
  have hd : (16 * h.val + d.val) % 16 = d.val := by have := d.isLt; omega
  show headOut _ _ _ _ _ _ = ctx _ _ _ _ _
  unfold ctx
  congr 1
  · exact Fin.ext hh.symm
  · exact Fin.ext hd.symm

/-! ## The kernel's column order -/

def qcolF (h : Fin 8) (d : Fin 16) : Fin 384 := ⟨16 * h.val + d.val, by have := h.isLt; have := d.isLt; omega⟩
def kcolF (h : Fin 8) (d : Fin 16) : Fin 384 := ⟨128 + 16 * h.val + d.val, by have := h.isLt; have := d.isLt; omega⟩
def vcolF (h : Fin 8) (d : Fin 16) : Fin 384 := ⟨256 + 16 * h.val + d.val, by have := h.isLt; have := d.isLt; omega⟩

/-- Row `c` of the kernel's regrouped weight is row `fusedRow c` of the original: `c = 128 k + 16 h + d` ↦ `48 h + 16 k + d`. -/
def fusedRow (c : Fin 384) : Fin 384 :=
  ⟨48 * ((c.val % 128) / 16) + 16 * (c.val / 128) + c.val % 16, by have := c.isLt; omega⟩

theorem fusedRow_q (h : Fin 8) (d : Fin 16) : fusedRow (qcolF h d) = qcol h d :=
  Fin.ext (by have := h.isLt; have := d.isLt; show 48 * ((16 * h.val + d.val) % 128 / 16) + 16 * ((16 * h.val + d.val) / 128) + (16 * h.val + d.val) % 16 = 48 * h.val + d.val; omega)
theorem fusedRow_k (h : Fin 8) (d : Fin 16) : fusedRow (kcolF h d) = kcol h d :=
  Fin.ext (by have := h.isLt; have := d.isLt; show 48 * ((128 + 16 * h.val + d.val) % 128 / 16) + 16 * ((128 + 16 * h.val + d.val) / 128) + (128 + 16 * h.val + d.val) % 16 = 48 * h.val + 16 + d.val; omega)
theorem fusedRow_v (h : Fin 8) (d : Fin 16) : fusedRow (vcolF h d) = vcol h d :=
  Fin.ext (by have := h.isLt; have := d.isLt; show 48 * ((256 + 16 * h.val + d.val) % 128 / 16) + 16 * ((256 + 16 * h.val + d.val) / 128) + (256 + 16 * h.val + d.val) % 16 = 48 * h.val + 32 + d.val; omega)

abbrev SXb : Shape := ⟨3, ![1, 1024, 128]⟩
abbrev SWf : Shape := ⟨2, ![128, 384]⟩
abbrev SBf : Shape := ⟨2, ![1, 384]⟩
abbrev SBob : Shape := ⟨2, ![1, 128]⟩

/-- The kernel's fused projection of one block: `x0` the activations' block `[1, 1024, 128]`, `x1` the regrouped weight
    transposed `[128, 384]`, `x2` the regrouped bias as a row `[1, 384]`. -/
def projF (x0 : SXb.Idx → EReal) (x1 : SWf.Idx → EReal) (x2 : SBf.Idx → EReal) (s : Fin 1024) (c : Fin 384) : EReal :=
  (∑ d : Fin 128, x0 (ix3 (0 : Fin 1) s d) * x1 (ix2 d c)) + x2 (ix2 (0 : Fin 1) c)

end Cert.Attn

end
-- ==== Proof.LibColumnLayout.lean ====
/-
  Column forms of the layout operations, read at an index by coordinates: a vector [a] cast to the column [a, 1]
  and back, and a column [a, 1] broadcast along its unit axis to [a, b].  Each reads the operand at the same
  row; the unit axis carries coordinate 0.
-/
import Idealize.ShloMosaic.Lib.ValueLayout
import Idealize.ShloMosaic.Lib.Pipeline.Value

namespace PhysLoss

open Idealize.ShloMosaic Idealize.ShloMosaic.ValueIdx

variable {α : Type}

/-- A vector `[a]` cast to the column `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end PhysLoss
-- ==== Proof.LibSoftplus.lean ====
/-
  Softplus and a plain matrix product read at one entry, at the ideal values (extended reals, every operation exact).

  `sp x = max x 0 + log (1 + e^(-|x|))` is the numerically stable softplus, total on the extended reals. jax's
  `logaddexp x 0` computes it behind a test `d ≠ d` of the difference `d = x - 0`, which no extended real passes, so the
  guarded branch is never taken. `softplus_vector_apply` reads the vector form (the exponent written `0 - |d|`) at an index,
  `softplus_host_apply` the host form (the exponent written as a negation, the zero splat printed three times); both are `sp` of the operand's entry.
  `matmul0_plain_apply`: an [R, K] by [K, N] product accumulated into a zero splat, read at the entry (p, j), is the sum
  over the contracted coordinate of the products — whatever formats the two operands are stored in, since a format
  change is the identity here. `sum_fin256_split`: a sum over 256 coordinates as the sums over its first 64, next 128
  and last 64 coordinates.
-/
import Idealize.ShloMosaic.Lib.ValueIdx
import Idealize.ShloMosaic.Lib.StackMember
import Idealize.ShloMosaic.Lib.KernelVsHost
import Idealize.ShloMosaic.PureOps.Ideal.Laws

noncomputable section

open scoped BigOperators

namespace Cert.Lib.Softplus

open Idealize.ShloMosaic Idealize.ShloMosaic.ValueIdx Idealize.ShloMosaic.StackMember

/-- The stable softplus on the extended reals: `max x 0 + log (1 + e^(-|x|))`. -/
def sp (x : EReal) : EReal :=
  max x 0 + Ideal.log1p (Ideal.exp (-(FloatOps.absf (F := Ideal) (φ := .f32) x)))

/-- No extended real differs from itself: the ordered "not equal" test of a value against itself fails. -/
theorem cmp_one_self (x : EReal) : Ideal.cmp .one x x = 0#1 := by simp [Ideal.cmp]

/-- The unordered "not equal" test of a value against itself fails too (nothing is unordered here). -/
theorem cmp_une_self (x : EReal) : Ideal.cmp .une x x = 0#1 := by simp [Ideal.cmp]

/-- The zero word of f32 is the real zero. -/
theorem zero_word : (FloatOps.ofBits (F := Ideal) .f32 0x00000000#32 : Ideal .f32) = 0 := Ideal.ofBits_zero_f32

/-- The vector form of `logaddexp v 0` (a splat `c` of zero; the exponent as `0 - |v - 0|`), read at an index. -/
theorem softplus_vector_apply {s : Shape} (c : Ideal .f32) (hc : c = 0) (v : FVec Ideal s .f32) (i : s.Idx) :
    select (cmpf .one (subf v (broadcast s c)) (subf v (broadcast s c)))
      (addf v (broadcast s c))
      (addf (maximumf v (broadcast s c))
        (log1p (exp (subf (broadcast s c) (absf (subf v (broadcast s c))))))) i
    = sp (v i) := by
  subst hc
  show Scalar.select (Ideal.cmp .one (v i - 0) (v i - 0)) (v i + 0)
      (max (v i) 0 + Ideal.log1p (Ideal.exp (0 - FloatOps.absf (F := Ideal) (φ := .f32) (v i - 0)))) = _
  rw [sub_zero, zero_sub, cmp_one_self, select_zero]
  rfl

/-- The host form of `logaddexp v 0` (the three splats of zero it prints as any arrays that are zero everywhere; the
    exponent as the negation of `|v - 0|`), read at an index. -/
theorem softplus_host_apply {s : Shape} (v z0 z1 z2 : FVec Ideal s .f32)
    (h0 : ∀ i, z0 i = 0) (h1 : ∀ i, z1 i = 0) (h2 : ∀ i, z2 i = 0) (i : s.Idx) :
    select (cmpf .une (subf v z1) (subf v z1)) (addf v z2)
      (addf (maximumf v z0) (Host.log1p (Host.exp (Host.negf (Host.absf (subf v z1)))))) i
    = sp (v i) := by
  show Scalar.select (Ideal.cmp .une (v i - z1 i) (v i - z1 i)) (v i + z2 i)
      (max (v i) (z0 i) + Ideal.log1p (Ideal.exp (-(FloatOps.absf (F := Ideal) (φ := .f32) (v i - z1 i))))) = _
  rw [h0, h1, h2, sub_zero, cmp_une_self, select_zero]
  rfl

/-- A plain [R, K] by [K, N] product into a zero accumulator, read at (p, j), whatever the operands' formats. The
    dimension numbers are any record equal to the plain ones. -/
theorem matmul0_plain_apply {R K N : Nat} {φ₁ φ₂ : FTy} (D : DotDims ⟨2, ![R, K]⟩ ⟨2, ![K, N]⟩ ⟨2, ![R, N]⟩)
    (hD : D = DotDims.plain R K N) (prec : Option ContractPrecision)
    (h : FVec Ideal ⟨2, ![R, K]⟩ φ₁) (w : FVec Ideal ⟨2, ![K, N]⟩ φ₂) (p : Fin R) (j : Fin N) :
    matmul D prec h w (constant ⟨2, ![R, N]⟩ .f32 0x00000000#32) (ix2 p j) = ∑ k : Fin K, h (ix2 p k) * w (ix2 k j) := by
  subst hD
  exact (congrFun (matmul_zero_eq_dotGeneral _ prec h w) _).trans (dotGeneral_plain_apply prec h w p j)

/-- A sum over 256 coordinates, split where a 64-, a 128- and a 64-wide piece were joined. -/
theorem sum_fin256_split {M : Type*} [AddCommMonoid M] (f : Fin 256 → M) :
    ∑ q : Fin 256, f q
      = (∑ k : Fin 64, f ⟨k.val, by omega⟩ + ∑ k : Fin 128, f ⟨64 + k.val, by omega⟩) + ∑ k : Fin 64, f ⟨192 + k.val, by omega⟩ := by
  have e : ∑ q : Fin 256, f q = ∑ q : Fin (64 + 128 + 64), f q := rfl
  rw [e, Fin.sum_univ_add, Fin.sum_univ_add]
  rfl

end Cert.Lib.Softplus

end
-- ==== Proof.KIPayHead.lean ====
/-
  One attention head of the kernel, read at an index, at the ideal values.

  From a query, a key and a value slab (1024 rows, sixteen lanes each) the kernel forms the logits as the product of the
  query slab with the transposed key slab, shifts each row by its maximum, exponentiates, divides by the row's sum and
  multiplies the weights with the value slab.  Every step is exact on the extended reals, so the result at row `s`, lane
  `d` is the specification's head output over the three slabs' lanes.
-/
import proofs.«162198_j1477468750124_2_alg».proof.Proof.Spec
import proofs.«162198_j1477468750124_2_alg».proof.Proof.KIData
import proofs.«162198_j1477468750124_2_alg».proof.Proof.LibColumnLayout
import proofs.«162198_j1477468750124_2_alg».proof.Proof.LibSoftplus
import Idealize.ShloMosaic.PureOps.Ideal.Laws
import Idealize.ShloMosaic.Lib.ValueLayout

noncomputable section

namespace Cert.KernelIdeal.PayValue

open Cert.Attn Cert.KernelIdeal Cert.KernelIdeal.Gen
open Idealize.ShloMosaic Idealize.ShloMosaic.ValueIdx

/-- The logits of a query slab against a key slab. -/
def logitsV (q k : FVec Ideal S1024x16 .bf16) : FVec Ideal S1024x1024 .f32 :=
  matmul dot_S1024x16_S16x1024_S1024x1024_1_0_0_1_n_n none q
    (transpose S16x1024 [1, 0] k transposes_S1024x16_p1_0_S16x1024) (constant S1024x1024 .f32 0x00000000#32)

/-- A row reduction's result laid back over the columns. -/
def colV (m : FVec Ideal S1024 .f32) : FVec Ideal S1024x1024 .f32 :=
  broadcastTo S1024x1024 (shapeCast S1024x1 m shapeCasts_S1024_S1024x1) broadcasts_S1024x1_S1024x1024

/-- The row maxima. -/
def maxV (A : FVec Ideal S1024x1024 .f32) : FVec Ideal S1024 .f32 :=
  multiReduction .maximumf [1] S1024 A 0xFF800000#32 reduces_S1024x1024_S1024 (.inl rfl) rfl

/-- The row sums. -/
def sumV (E : FVec Ideal S1024x1024 .f32) : FVec Ideal S1024 .f32 :=
  multiReduction .add [1] S1024 E 0x00000000#32 reduces_S1024x1024_S1024 (.inl rfl) rfl

/-- The shifted exponentials. -/
def expV (A : FVec Ideal S1024x1024 .f32) : FVec Ideal S1024x1024 .f32 := exp (subf A (colV (maxV A)))

/-- The softmax weights, as the kernel hands them to the value product. -/
def wgtV (q k : FVec Ideal S1024x16 .bf16) : FVec Ideal S1024x1024 .bf16 :=
  truncf .bf16 (divf (expV (logitsV q k)) (colV (sumV (expV (logitsV q k))))) bitsLt_bf16_f32

/-- The head's output. -/
def headV (q k v : FVec Ideal S1024x16 .bf16) : FVec Ideal S1024x16 .f32 :=
  matmul dot_S1024x1024_S1024x16_S1024x16_1_0_0_1_n_n none (wgtV q k) v (constant S1024x16 .f32 0x00000000#32)

/-- The lanes of a slab, the same for every head. -/
def lanesV (q : FVec Ideal S1024x16 .bf16) : Lanes := fun _ s d => q (ix2 s d)

theorem logitsV_apply (q k : FVec Ideal S1024x16 .bf16) (s t : Fin 1024) :
    logitsV q k (ix2 s t) = ∑ d : Fin 16, q (ix2 s d) * k (ix2 t d) := by
  unfold logitsV
  refine (Cert.Lib.Softplus.matmul0_plain_apply dot_S1024x16_S16x1024_S1024x1024_1_0_0_1_n_n rfl none q _ s t).trans ?_
  refine Finset.sum_congr rfl fun d _ => ?_
  rw [transpose_ix2_apply k transposes_S1024x16_p1_0_S16x1024 d t]

theorem colV_apply (m : FVec Ideal S1024 .f32) (s t : Fin 1024) : colV m (ix2 s t) = m (ix1 s) := by
  unfold colV
  refine (PhysLoss.broadcastTo_a1_ab_apply _ broadcasts_S1024x1_S1024x1024 s t).trans ?_
  exact PhysLoss.shapeCast_a_a1_apply m shapeCasts_S1024_S1024x1 s 0

theorem lift_eq (s t : Fin 1024) : reduces_S1024x1024_S1024.lift (ix1 s) t = ix2 s t := by
  funext a
  match a with
  | ⟨0, _⟩ => exact Fin.ext rfl
  | ⟨1, _⟩ => exact Fin.ext rfl

theorem maxV_apply (A : FVec Ideal S1024x1024 .f32) (s : Fin 1024) :
    maxV A (ix1 s) = (Finset.univ : Finset (Fin 1024)).fold max ninf (fun t => A (ix2 s t)) := by
  unfold maxV
  refine (Ideal.multiReduction_maximumf_single A 0xFF800000#32 reduces_S1024x1024_S1024 (.inl rfl) rfl (ix1 s)).trans ?_
  exact congrArg (fun f : Fin 1024 → EReal => (Finset.univ : Finset (Fin 1024)).fold max ninf f)
    (funext fun t => congrArg A (lift_eq s t))

theorem sumV_apply (E : FVec Ideal S1024x1024 .f32) (s : Fin 1024) :
    sumV E (ix1 s) = ∑ t : Fin 1024, E (ix2 s t) := by
  unfold sumV
  refine (Ideal.multiReduction_add_single E 0x00000000#32 reduces_S1024x1024_S1024 (.inl rfl) rfl (ix1 s)).trans ?_
  exact Finset.sum_congr rfl fun t _ => congrArg E (lift_eq s t)

/-- The weights at row `s`, column `t`: the specification's softmax weight over the slabs' lanes. -/
theorem wgtV_apply (q k : FVec Ideal S1024x16 .bf16) (h : Fin 8) (s t : Fin 1024) :
    wgtV q k (ix2 s t) = wgt (lanesV q) (lanesV k) h s t := by
  have hL : ∀ s t, logitsV q k (ix2 s t) = logit (lanesV q) (lanesV k) h s t := fun s t => logitsV_apply q k s t
  have hM : ∀ s, maxV (logitsV q k) (ix1 s) = rowMax (lanesV q) (lanesV k) h s := fun s => by
    rw [maxV_apply]
    exact congrArg (fun f : Fin 1024 → EReal => (Finset.univ : Finset (Fin 1024)).fold max ninf f) (funext fun t => hL s t)
  have hE : ∀ s t, expV (logitsV q k) (ix2 s t) = pexp (lanesV q) (lanesV k) h s t := fun s t => by
    show Ideal.exp (logitsV q k (ix2 s t) - colV (maxV (logitsV q k)) (ix2 s t)) = _
    rw [colV_apply, hL, hM]
    rfl
  show Ideal.div (expV (logitsV q k) (ix2 s t)) (colV (sumV (expV (logitsV q k))) (ix2 s t)) = _
  rw [colV_apply, sumV_apply, hE]
  unfold wgt
  exact congrArg (Ideal.div _) (Finset.sum_congr rfl fun t' _ => hE s t')

/-- The head's output at row `s`, lane `d`. -/
theorem headV_apply (q k v : FVec Ideal S1024x16 .bf16) (h : Fin 8) (s : Fin 1024) (d : Fin 16) :
    headV q k v (ix2 s d) = headOut (lanesV q) (lanesV k) (lanesV v) h s d := by
  unfold headV
  refine (Cert.Lib.Softplus.matmul0_plain_apply dot_S1024x1024_S1024x16_S1024x16_1_0_0_1_n_n rfl none (wgtV q k) v s d).trans ?_
  unfold headOut
  exact Finset.sum_congr rfl fun t _ => by rw [wgtV_apply q k h s t]; rfl

/-- The head output depends on the lanes of its own head only. -/
theorem headOut_congr (Q K V Q' K' V' : Lanes) (h h' : Fin 8)
    (hq : ∀ s d, Q h s d = Q' h' s d) (hk : ∀ s d, K h s d = K' h' s d) (hv : ∀ s d, V h s d = V' h' s d)
    (s : Fin 1024) (d : Fin 16) : headOut Q K V h s d = headOut Q' K' V' h' s d := by
  have eq : Q h = Q' h' := funext fun s => funext fun d => hq s d
  have ek : K h = K' h' := funext fun s => funext fun d => hk s d
  have ev : V h = V' h' := funext fun s => funext fun d => hv s d
  unfold headOut wgt pexp rowMax logit
  rw [eq, ek, ev]

end Cert.KernelIdeal.PayValue

end
-- ==== Proof.KIPay.lean ====
/-
  The kernel's two stored values read at an index, at the ideal values.

  The fused projection of the block is `x W + b` at every row and column; the eight heads read their query, key and value
  slabs at the columns `16 h`, `128 + 16 h`, `256 + 16 h` of it; the context slab lays the eight heads' outputs side by
  side, head `j / 16`, lane `j % 16` at column `j`; the output is the slab times the output weight plus the output bias.
-/
import proofs.«162198_j1477468750124_2_alg».proof.Proof.KIPayHead
import Idealize.ShloMosaic.Lib.Pipeline.Value

noncomputable section

namespace Cert.KernelIdeal.PayValue

open Cert.Attn Cert.KernelIdeal Cert.KernelIdeal.Gen
open Idealize.ShloMosaic Idealize.ShloMosaic.ValueIdx

/-- A shape cast between equal shapes reads the operand at the same index. -/
theorem shapeCast_same_apply {α : Type} {s : Shape} (x : s.Idx → α) (h : s.ShapeCasts s) (j : s.Idx) :
    shapeCast s x h j = x j :=
  shapeCast_apply x h j j rfl

/-- The fused projection at row `s`, column `c`. -/
theorem pay4_apply (x0 : Vec Ideal S1x1024x128 .f32) (x1 : Vec Ideal S128x384 .f32) (x2 : Vec Ideal S1x384 .f32)
    (s : Fin 1024) (c : Fin 384) : k0_pay4 (F := Ideal) x0 x1 x2 (ix2 s c) = projF x0 x1 x2 s c := by
  unfold k0_pay4 projF
  show (_ + _ : EReal) = _
  refine congrArg₂ (· + ·) ?_ ?_
  · refine (Cert.Lib.Softplus.matmul0_plain_apply dot_S1024x128_S128x384_S1024x384_1_0_0_1_n_n rfl none _ _ s c).trans ?_
    refine Finset.sum_congr rfl fun d _ => ?_
    refine congrArg₂ (· * ·) ?_ ?_
    · exact shapeCast_1ab_ab_apply x0 shapeCasts_S1x1024x128_S1024x128 s d
    · exact shapeCast_same_apply x1 shapeCasts_S128x384_S128x384 (ix2 d c)
  · refine (broadcastTo_1b_ab_apply _ broadcasts_S1x384_S1024x384 s c).trans ?_
    exact shapeCast_same_apply x2 shapeCasts_S1x384_S1x384 (ix2 (0 : Fin 1) c)

/-- One head over three column slices of a projected block `P`: the specification's head over `P`'s lanes at the
    kernel's columns. -/
theorem head_slices (P : FVec Ideal S1024x384 .bf16) (Pf : Fin 1024 → Fin 384 → EReal) (hP : ∀ s c, P (ix2 s c) = Pf s c)
    (h : Fin 8) (oq ok ov : Nat) (hq : S1024x384.Slices ![0, oq] S1024x16) (hk : S1024x384.Slices ![0, ok] S1024x16)
    (hv : S1024x384.Slices ![0, ov] S1024x16) (eq : oq = 16 * h.val) (ek : ok = 128 + 16 * h.val) (ev : ov = 256 + 16 * h.val)
    (s : Fin 1024) (d : Fin 16) :
    headV (extractStridedSlice S1024x16 ![0, oq] P hq) (extractStridedSlice S1024x16 ![0, ok] P hk)
        (extractStridedSlice S1024x16 ![0, ov] P hv) (ix2 s d)
      = headOut (lanesOf Pf qcolF) (lanesOf Pf kcolF) (lanesOf Pf vcolF) h s d := by
  subst eq ek ev
  refine (headV_apply _ _ _ h s d).trans (headOut_congr _ _ _ _ _ _ h h (fun s d => ?_) (fun s d => ?_) (fun s d => ?_) s d)
  · exact (slice2_axis1_eq _ P hq s d).trans ((hP _ _).trans (congrArg (Pf s) (Fin.ext rfl)))
  · exact (slice2_axis1_eq _ P hk s d).trans ((hP _ _).trans (congrArg (Pf s) (Fin.ext rfl)))
  · exact (slice2_axis1_eq _ P hv s d).trans ((hP _ _).trans (congrArg (Pf s) (Fin.ext rfl)))

/-- The eight heads' outputs as the body computes them from the block, by head. -/
def pieces (x0 : Vec Ideal S1x1024x128 .f32) (x1 : Vec Ideal S128x384 .f32) (x2 : Vec Ideal S1x384 .f32) :
    Fin 8 → FVec Ideal S1024x16 .f32
  | ⟨0, _⟩ => k0_pay5 x0 x1 x2
  | ⟨1, _⟩ => k0_pay8 (k0_pay6 x0 x1 x2) (k0_pay7 x0 x1 x2) Hand.zacc
  | ⟨2, _⟩ => k0_pay9 (k0_pay4 x0 x1 x2)
  | ⟨3, _⟩ => k0_pay10 (k0_pay4 x0 x1 x2)
  | ⟨4, _⟩ => k0_pay13 (k0_pay11 (k0_pay4 x0 x1 x2)) (k0_pay12 (k0_pay4 x0 x1 x2)) Hand.zacc
  | ⟨5, _⟩ => k0_pay14 (k0_pay4 x0 x1 x2)
  | ⟨6, _⟩ => k0_pay15 (k0_pay4 x0 x1 x2)
  | ⟨7, _⟩ => matmul dot_S1024x1024_S1024x16_S1024x16_1_0_0_1_n_n none (k0_pay17 (k0_pay4 x0 x1 x2))
      (k0_pay16 (k0_pay4 x0 x1 x2)) Hand.zacc

/-- Each of them is the specification's head over the projection's lanes at the kernel's columns. -/
theorem pieces_apply (x0 : Vec Ideal S1x1024x128 .f32) (x1 : Vec Ideal S128x384 .f32) (x2 : Vec Ideal S1x384 .f32)
    (n : Fin 8) (s : Fin 1024) (d : Fin 16) :
    pieces x0 x1 x2 n (ix2 s d)
      = headOut (lanesOf (projF x0 x1 x2) qcolF) (lanesOf (projF x0 x1 x2) kcolF) (lanesOf (projF x0 x1 x2) vcolF) n s d := by
  match n with
  | ⟨0, _⟩ =>
    exact head_slices (k0_pay4 x0 x1 x2) (projF x0 x1 x2) (pay4_apply x0 x1 x2) ⟨0, by omega⟩ 0 128 256
      slices_S1024x384_o0_0_S1024x16 slices_S1024x384_o0_128_S1024x16 slices_S1024x384_o0_256_S1024x16 rfl rfl rfl s d
  | ⟨1, _⟩ =>
    exact head_slices (k0_pay4 x0 x1 x2) (projF x0 x1 x2) (pay4_apply x0 x1 x2) ⟨1, by omega⟩ 16 144 272
      slices_S1024x384_o0_16_S1024x16 slices_S1024x384_o0_144_S1024x16 slices_S1024x384_o0_272_S1024x16 rfl rfl rfl s d
  | ⟨2, _⟩ =>
    exact head_slices (k0_pay4 x0 x1 x2) (projF x0 x1 x2) (pay4_apply x0 x1 x2) ⟨2, by omega⟩ 32 160 288
      slices_S1024x384_o0_32_S1024x16 slices_S1024x384_o0_160_S1024x16 slices_S1024x384_o0_288_S1024x16 rfl rfl rfl s d
  | ⟨3, _⟩ =>
    exact head_slices (k0_pay4 x0 x1 x2) (projF x0 x1 x2) (pay4_apply x0 x1 x2) ⟨3, by omega⟩ 48 176 304
      slices_S1024x384_o0_48_S1024x16 slices_S1024x384_o0_176_S1024x16 slices_S1024x384_o0_304_S1024x16 rfl rfl rfl s d
  | ⟨4, _⟩ =>
    exact head_slices (k0_pay4 x0 x1 x2) (projF x0 x1 x2) (pay4_apply x0 x1 x2) ⟨4, by omega⟩ 64 192 320
      slices_S1024x384_o0_64_S1024x16 slices_S1024x384_o0_192_S1024x16 slices_S1024x384_o0_320_S1024x16 rfl rfl rfl s d
  | ⟨5, _⟩ =>
    exact head_slices (k0_pay4 x0 x1 x2) (projF x0 x1 x2) (pay4_apply x0 x1 x2) ⟨5, by omega⟩ 80 208 336
      slices_S1024x384_o0_80_S1024x16 slices_S1024x384_o0_208_S1024x16 slices_S1024x384_o0_336_S1024x16 rfl rfl rfl s d
  | ⟨6, _⟩ =>
    exact head_slices (k0_pay4 x0 x1 x2) (projF x0 x1 x2) (pay4_apply x0 x1 x2) ⟨6, by omega⟩ 96 224 352
      slices_S1024x384_o0_96_S1024x16 slices_S1024x384_o0_224_S1024x16 slices_S1024x384_o0_352_S1024x16 rfl rfl rfl s d
  | ⟨7, _⟩ =>
    exact head_slices (k0_pay4 x0 x1 x2) (projF x0 x1 x2) (pay4_apply x0 x1 x2) ⟨7, by omega⟩ 112 240 368
      slices_S1024x384_o0_112_S1024x16 slices_S1024x384_o0_240_S1024x16 slices_S1024x384_o0_368_S1024x16 rfl rfl rfl s d

/-- The context slab before the leading unit axis is added: the eight heads' outputs side by side. -/
def slab2 (x0 : Vec Ideal S1x1024x128 .f32) (x1 : Vec Ideal S128x384 .f32) (x2 : Vec Ideal S1x384 .f32) :
    FVec Ideal S1024x128 .f32 :=
  k0_pay1 (k0_pay5 x0 x1 x2) (k0_pay8 (k0_pay6 x0 x1 x2) (k0_pay7 x0 x1 x2) Hand.zacc) (k0_pay9 (k0_pay4 x0 x1 x2))
    (k0_pay10 (k0_pay4 x0 x1 x2)) (k0_pay13 (k0_pay11 (k0_pay4 x0 x1 x2)) (k0_pay12 (k0_pay4 x0 x1 x2)) Hand.zacc)
    (k0_pay14 (k0_pay4 x0 x1 x2)) (k0_pay15 (k0_pay4 x0 x1 x2)) (k0_pay16 (k0_pay4 x0 x1 x2)) (k0_pay17 (k0_pay4 x0 x1 x2)) Hand.zacc

/-- Column `j` of the slab is head `j / 16`, lane `j % 16`. -/
theorem slab2_apply (x0 : Vec Ideal S1x1024x128 .f32) (x1 : Vec Ideal S128x384 .f32) (x2 : Vec Ideal S1x384 .f32)
    (s : Fin 1024) (j : Fin 128) :
    slab2 x0 x1 x2 (ix2 s j)
      = ctx (lanesOf (projF x0 x1 x2) qcolF) (lanesOf (projF x0 x1 x2) kcolF) (lanesOf (projF x0 x1 x2) vcolF) s j := by
  unfold ctx
  refine Eq.trans ?_ (pieces_apply x0 x1 x2 ⟨j.val / 16, by have := j.isLt; omega⟩ s ⟨j.val % 16, Nat.mod_lt _ (by decide)⟩)
  exact concatenate_ofFn_apply (t := S1024x128) (s₁ := S1024x16) (1 : Fin 2) (pieces x0 x1 x2)
    concatenates_S1024x16_S1024x16_S1024x16_S1024x16_S1024x16_S1024x16_S1024x16_S1024x16_S1024x128_d1 rfl 16 rfl (ix2 s j)
    ⟨j.val / 16, by have := j.isLt; omega⟩ rfl (ix2 s ⟨j.val % 16, Nat.mod_lt _ (by decide)⟩) rfl
    (fun b => match b with | ⟨0, _⟩ => fun _ => rfl | ⟨1, _⟩ => fun hb => absurd rfl hb)

theorem slabPay_apply (x0 : Vec Ideal S1x1024x128 .f32) (x1 : Vec Ideal S128x384 .f32) (x2 : Vec Ideal S1x384 .f32)
    (s : Fin 1024) (j : Fin 128) :
    Cert.KernelIdeal.Hand.slabPay (F := Ideal) x0 x1 x2 (ix3 (0 : Fin 1) s j)
      = ctx (lanesOf (projF x0 x1 x2) qcolF) (lanesOf (projF x0 x1 x2) kcolF) (lanesOf (projF x0 x1 x2) vcolF) s j :=
  (shapeCast_ab_1ab_apply (slab2 x0 x1 x2) shapeCasts_S1024x128_S1x1024x128 (0 : Fin 1) s j).trans (slab2_apply x0 x1 x2 s j)

theorem oPay_apply (x0 : Vec Ideal S1x1024x128 .f32) (x1 : Vec Ideal S128x384 .f32) (x2 : Vec Ideal S1x384 .f32)
    (x3 : Vec Ideal S128x128 .f32) (x4 : Vec Ideal S1x128 .f32) (s : Fin 1024) (e : Fin 128) :
    Cert.KernelIdeal.Hand.oPay (F := Ideal) x0 x1 x2 x3 x4 (ix3 (0 : Fin 1) s e)
      = outRow (lanesOf (projF x0 x1 x2) qcolF) (lanesOf (projF x0 x1 x2) kcolF) (lanesOf (projF x0 x1 x2) vcolF)
          (fun e j => x3 (ix2 j e)) (fun e => x4 (ix2 (0 : Fin 1) e)) s e := by
  unfold Hand.oPay k0_pay3
  refine (shapeCast_ab_1ab_apply _ shapeCasts_S1024x128_S1x1024x128 (0 : Fin 1) s e).trans ?_
  unfold outRow
  show (_ + _ : EReal) = _
  refine congrArg₂ (· + ·) ?_ ?_
  · refine (Cert.Lib.Softplus.matmul0_plain_apply dot_S1024x128_S128x128_S1024x128_1_0_0_1_n_n rfl none _ _ s e).trans ?_
    refine Finset.sum_congr rfl fun j _ => ?_
    refine congrArg₂ (· * ·) ?_ ?_
    · exact slab2_apply x0 x1 x2 s j
    · exact shapeCast_same_apply x3 shapeCasts_S128x128_S128x128 (ix2 j e)
  · refine (broadcastTo_1b_ab_apply _ broadcasts_S1x128_S1024x128 s e).trans ?_
    exact shapeCast_same_apply x4 shapeCasts_S1x128_S1x128 (ix2 (0 : Fin 1) e)

end Cert.KernelIdeal.PayValue

end
-- ==== Proof.KIHostTables.lean ====
/-
  The host's three row tables, its two gathers and its two concatenations, read at an index.

  Table k (k = 0, 1, 2) holds at position p the row 48 (p / 16) + 16 k + p % 16.  Each table reaches its gather through an add
  of 384, a select on an all-false mask (which keeps the table itself) and a broadcast to a column; a gather of whole rows
  reads, at result row r, the operand's row at the start index, read signed and clamped into the operand's rows; the
  tables' values are below 384, so the clamp keeps them.
-/
import proofs.«162198_j1477468750124_2_alg».proof.Proof.Gen.KernelIdeal.Launch
import proofs.«162198_j1477468750124_2_alg».proof.Proof.Spec
import Idealize.ShloMosaic.Lib.Pipeline.Value
import Idealize.ShloMosaic.Lib.ValueIdx
import Idealize.ShloMosaic.Lib.ValueLayout

noncomputable section

namespace Cert.KernelIdeal.HostValue

open Cert.KernelIdeal Cert.KernelIdeal.Gen Cert.Attn
open Idealize.ShloMosaic Idealize.ShloMosaic.ValueIdx

/-! ## The three row tables -/

theorem lit0_val : ∀ p : Fin 128, (lit0 p).toInt.toNat = 48 * (p.val / 16) + p.val % 16 := by decide
theorem lit1_val : ∀ p : Fin 128, (lit1 p).toInt.toNat = 48 * (p.val / 16) + 16 + p.val % 16 := by decide
theorem lit2_val : ∀ p : Fin 128, (lit2 p).toInt.toNat = 48 * (p.val / 16) + 32 + p.val % 16 := by decide

/-! ## The start indices -/

/-- What a gather's start-index operand holds: the table `L` after the add of 384 and the select on the all-false mask,
    as a column. -/
def startIdx (L : Fin 128 → BitVec 32) : IVec S128x1 32 :=
  broadcastInDim S128x1 ![0] bcast_S128_S128x1_0
    (select (constantI S128 1 0#1)
      (addi (fun i => L (S128.rowMajor i)) (broadcastInDim S128 ![] bcast_S_S128 (constantI S_ 32 384#32)))
      (fun i => L (S128.rowMajor i)))

/-- The mask is all false, so the select keeps the table: row `r` of the column holds `L r`. -/
theorem startIdx_apply (L : Fin 128 → BitVec 32) (j : S128x1.Idx) (r : Fin 128) (hj : (j 0).val = r.val) :
    startIdx L j = L r := by
  unfold startIdx
  refine (broadcastInDim_apply (![0] : Fin 1 → Fin 2) bcast_S128_S128x1_0 _ j (ix1 r) (fun a => match a with
    | ⟨0, _⟩ => by
      show r.val = if (128 : Nat) = 1 then 0 else (j 0).val
      rw [if_neg (by decide)]; exact hj.symm)).trans ?_
  show Scalar.select 0#1 _ (L (S128.rowMajor (ix1 r))) = L r
  rw [select_zero]
  exact congrArg L (Fin.ext (Shape.rowMajor_val_one _))

/-! ## The two gathers at an index -/

section Gather
variable {α : Type}

/-- The gather of whole rows of a `[384, 128]` operand read at `(r, e)`: the operand at the row the start index `idx[r, 0]`
    names, read signed and clamped into `[0, 383]`, column `e`. -/
theorem gatherRows_apply (x : S384x128.Idx → α) (idx : IVec S128x1 32) (r e : Fin 128) :
    Host.gather gather_S384x128_S128x1_S128x128_1_0_n_n_0_1_1128 x idx (ix2 r e)
      = x (ix2 (⟨min (idx (ix2 r (0 : Fin 1))).toInt.toNat 383, by omega⟩ : Fin 384) e) := by
  unfold Host.gather
  refine congrArg x (funext fun a => Fin.ext ?_)
  match a with
  | ⟨0, _⟩ =>
    show gather_S384x128_S128x1_S128x128_1_0_n_n_0_1_1128.start (ix2 r e) idx 0
        + gather_S384x128_S128x1_S128x128_1_0_n_n_0_1_1128.batchCoord (ix2 r e) 0
        + gather_S384x128_S128x1_S128x128_1_0_n_n_0_1_1128.offCoord (ix2 r e) 0 = _
    rw [GatherDims.batchCoord_eq_zero _ _ _ (show (0 : Fin 2) ∉ gather_S384x128_S128x1_S128x128_1_0_n_n_0_1_1128.operandBatchingDims from List.not_mem_nil),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S384x128_S128x1_S128x128_1_0_n_n_0_1_1128.startIndexMap from List.mem_singleton.mpr rfl)]
    have hsi : gather_S384x128_S128x1_S128x128_1_0_n_n_0_1_1128.siIdx (ix2 r e)
        ⟨List.idxOf (0 : Fin 2) gather_S384x128_S128x1_S128x128_1_0_n_n_0_1_1128.startIndexMap,
          List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show gather_S384x128_S128x1_S128x128_1_0_n_n_0_1_1128.start (ix2 r e) idx 1
        + gather_S384x128_S128x1_S128x128_1_0_n_n_0_1_1128.batchCoord (ix2 r e) 1
        + gather_S384x128_S128x1_S128x128_1_0_n_n_0_1_1128.offCoord (ix2 r e) 1 = e.val
    rw [GatherDims.batchCoord_eq_zero _ _ _ (show (1 : Fin 2) ∉ gather_S384x128_S128x1_S128x128_1_0_n_n_0_1_1128.operandBatchingDims from List.not_mem_nil)]
    have hst : gather_S384x128_S128x1_S128x128_1_0_n_n_0_1_1128.start (ix2 r e) idx 1 = 0 := by
      unfold GatherDims.start
      rw [dif_neg (show (1 : Fin 2) ∉ gather_S384x128_S128x1_S128x128_1_0_n_n_0_1_1128.startIndexMap from by decide)]
    have hoff : gather_S384x128_S128x1_S128x128_1_0_n_n_0_1_1128.offCoord (ix2 r e) 1 = e.val := by
      unfold GatherDims.offCoord
      rw [dif_pos (show (1 : Fin 2) ∈ gather_S384x128_S128x1_S128x128_1_0_n_n_0_1_1128.sKept from by decide)]
      rfl
    rw [hst, hoff, Nat.zero_add]

/-- The gather of single elements of a `[384]` operand read at `r`: the operand at the start index `idx[r, 0]`, read
    signed and clamped into `[0, 383]`. -/
theorem gatherVec_apply (x : S384.Idx → α) (idx : IVec S128x1 32) (r : Fin 128) :
    Host.gather gather_S384_S128x1_S128_n_0_n_n_0_1_1 x idx (ix1 r)
      = x (ix1 (⟨min (idx (ix2 r (0 : Fin 1))).toInt.toNat 383, by omega⟩ : Fin 384)) := by
  unfold Host.gather
  refine congrArg x (funext fun a => Fin.ext ?_)
  match a with
  | ⟨0, _⟩ =>
    show gather_S384_S128x1_S128_n_0_n_n_0_1_1.start (ix1 r) idx 0
        + gather_S384_S128x1_S128_n_0_n_n_0_1_1.batchCoord (ix1 r) 0
        + gather_S384_S128x1_S128_n_0_n_n_0_1_1.offCoord (ix1 r) 0 = _
    rw [GatherDims.batchCoord_eq_zero _ _ _ (show (0 : Fin 1) ∉ gather_S384_S128x1_S128_n_0_n_n_0_1_1.operandBatchingDims from List.not_mem_nil),
      GatherDims.offCoord_eq_zero _ _ _ (fun h => ((GatherDims.mem_sKept _ _).mp h).1 (List.mem_singleton.mpr rfl))]
    simp only [Nat.add_zero]
    unfold GatherDims.start
    rw [dif_pos (show (0 : Fin 1) ∈ gather_S384_S128x1_S128_n_0_n_n_0_1_1.startIndexMap from List.mem_singleton.mpr rfl)]
    have hsi : gather_S384_S128x1_S128_n_0_n_n_0_1_1.siIdx (ix1 r)
        ⟨List.idxOf (0 : Fin 1) gather_S384_S128x1_S128_n_0_n_n_0_1_1.startIndexMap,
          List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

/-- A row gather through a table's start indices reads the operand's row the table names, when that row exists. -/
theorem gatherRows_table (x : S384x128.Idx → α) (L : Fin 128 → BitVec 32) (r e : Fin 128) (v : Fin 384)
    (hv : (L r).toInt.toNat = v.val) :
    Host.gather gather_S384x128_S128x1_S128x128_1_0_n_n_0_1_1128 x (startIdx L) (ix2 r e) = x (ix2 v e) := by
  refine (gatherRows_apply x _ r e).trans ?_
  exact congrArg (fun w : Fin 384 => x (ix2 w e)) (Fin.ext (by
    show min (startIdx L (ix2 r (0 : Fin 1))).toInt.toNat 383 = v.val
    rw [startIdx_apply L _ r rfl, hv]; have := v.isLt; omega))

/-- The same for the element gather. -/
theorem gatherVec_table (x : S384.Idx → α) (L : Fin 128 → BitVec 32) (r : Fin 128) (v : Fin 384)
    (hv : (L r).toInt.toNat = v.val) :
    Host.gather gather_S384_S128x1_S128_n_0_n_n_0_1_1 x (startIdx L) (ix1 r) = x (ix1 v) := by
  refine (gatherVec_apply x _ r).trans ?_
  exact congrArg (fun w : Fin 384 => x (ix1 w)) (Fin.ext (by
    show min (startIdx L (ix2 r (0 : Fin 1))).toInt.toNat 383 = v.val
    rw [startIdx_apply L _ r rfl, hv]; have := v.isLt; omega))

end Gather

/-! ## Three pieces of 128 laid end to end along the first axis -/

section Concat
variable {α : Type}

/-- Row `cc` of three `[128, 128]` pieces laid end to end is row `cc`, `cc - 128` or `cc - 256` of the piece it falls in. -/
theorem concat3_rows_apply (x0 x1 x2 : S128x128.Idx → α) (cc : Fin 384) (d : Fin 128) :
    concatenate S384x128 0 [⟨S128x128, x0⟩, ⟨S128x128, x1⟩, ⟨S128x128, x2⟩]
        concatenates_S128x128_S128x128_S128x128_S384x128_d0 (ix2 cc d)
      = if h0 : cc.val < 128 then x0 (ix2 (⟨cc.val, h0⟩ : Fin 128) d)
        else if h1 : cc.val < 256 then x1 (ix2 (⟨cc.val - 128, by omega⟩ : Fin 128) d)
        else x2 (ix2 (⟨cc.val - 256, by have := cc.isLt; omega⟩ : Fin 128) d) := by
  have hcc := cc.isLt
  by_cases h0 : cc.val < 128
  · rw [dif_pos h0]
    exact concatenate_apply_piece _ _ _ (ix2 cc d) 0 (by show 0 < 3; omega) S128x128 x0 rfl rfl 0 rfl
      (ix2 (⟨cc.val, h0⟩ : Fin 128) d)
      (fun b hb => match b, hb with | ⟨0, _⟩, hb => absurd rfl hb | ⟨1, _⟩, _ => rfl)
      (by show 0 + cc.val = cc.val; omega)
  · rw [dif_neg h0]
    by_cases h1 : cc.val < 256
    · rw [dif_pos h1]
      exact concatenate_apply_piece _ _ _ (ix2 cc d) 1 (by show 1 < 3; omega) S128x128 x1 rfl rfl 128 rfl
        (ix2 (⟨cc.val - 128, by omega⟩ : Fin 128) d)
        (fun b hb => match b, hb with | ⟨0, _⟩, hb => absurd rfl hb | ⟨1, _⟩, _ => rfl)
        (by show 128 + (cc.val - 128) = cc.val; omega)
    · rw [dif_neg h1]
      exact concatenate_apply_piece _ _ _ (ix2 cc d) 2 (by show 2 < 3; omega) S128x128 x2 rfl rfl 256 rfl
        (ix2 (⟨cc.val - 256, by omega⟩ : Fin 128) d)
        (fun b hb => match b, hb with | ⟨0, _⟩, hb => absurd rfl hb | ⟨1, _⟩, _ => rfl)
        (by show 256 + (cc.val - 256) = cc.val; omega)

/-- Entry `cc` of three `[128]` pieces laid end to end is entry `cc`, `cc - 128` or `cc - 256` of the piece it falls in. -/
theorem concat3_vec_apply (x0 x1 x2 : S128.Idx → α) (cc : Fin 384) :
    concatenate S384 0 [⟨S128, x0⟩, ⟨S128, x1⟩, ⟨S128, x2⟩] concatenates_S128_S128_S128_S384_d0 (ix1 cc)
      = if h0 : cc.val < 128 then x0 (ix1 (⟨cc.val, h0⟩ : Fin 128))
        else if h1 : cc.val < 256 then x1 (ix1 (⟨cc.val - 128, by omega⟩ : Fin 128))
        else x2 (ix1 (⟨cc.val - 256, by have := cc.isLt; omega⟩ : Fin 128)) := by
  have hcc := cc.isLt
  by_cases h0 : cc.val < 128
  · rw [dif_pos h0]
    exact concatenate_apply_piece _ _ _ (ix1 cc) 0 (by show 0 < 3; omega) S128 x0 rfl rfl 0 rfl
      (ix1 (⟨cc.val, h0⟩ : Fin 128))
      (fun b hb => match b, hb with | ⟨0, _⟩, hb => absurd rfl hb)
      (by show 0 + cc.val = cc.val; omega)
  · rw [dif_neg h0]
    by_cases h1 : cc.val < 256
    · rw [dif_pos h1]
      exact concatenate_apply_piece _ _ _ (ix1 cc) 1 (by show 1 < 3; omega) S128 x1 rfl rfl 128 rfl
        (ix1 (⟨cc.val - 128, by omega⟩ : Fin 128))
        (fun b hb => match b, hb with | ⟨0, _⟩, hb => absurd rfl hb)
        (by show 128 + (cc.val - 128) = cc.val; omega)
    · rw [dif_neg h1]
      exact concatenate_apply_piece _ _ _ (ix1 cc) 2 (by show 2 < 3; omega) S128 x2 rfl rfl 256 rfl
        (ix1 (⟨cc.val - 256, by omega⟩ : Fin 128))
        (fun b hb => match b, hb with | ⟨0, _⟩, hb => absurd rfl hb)
        (by show 256 + (cc.val - 256) = cc.val; omega)

end Concat

end Cert.KernelIdeal.HostValue

end
-- ==== Proof.KIHost.lean ====
/-
  The host lines around the region, read at an index.

  Before the region the host regroups the rows of the fused weight and the entries of the fused bias — three gathers by
  literal row tables (all queries, then all keys, then all values), laid end to end —, transposes the regrouped weight and
  the output weight and writes the two biases as rows.  Row `cc` of the regrouped weight is row `fusedRow cc` of the
  original: piece `cc / 128` of the concatenation, read at its row `cc % 128`, is the gather of the row that piece's table
  names there.  After the region the host splits the slab's 128 columns into eight heads of sixteen lanes and swaps the
  row and head axes: head `h`, lane `d` is the slab's column `16 h + d`.
-/
import proofs.«162198_j1477468750124_2_alg».proof.Proof.KIData
import proofs.«162198_j1477468750124_2_alg».proof.Proof.KIHostTables
import Idealize.ShloMosaic.Lib.StableHlo.Run

noncomputable section

namespace Cert.KernelIdeal.HostValue

open Cert.KernelIdeal Cert.KernelIdeal.Gen Cert.KernelIdeal.Hand Cert.Attn
open Idealize.ShloMosaic Idealize.ShloMosaic.TcCoe Idealize.ShloMosaic.ValueIdx
open Idealize.SL Idealize.SL.Sem

/-- Each operation's result at its own result reference is its function's value, and at any other reference what was
    there; a literal family of references read at a literal position is that reference. -/
macro "host_results" : tactic =>
  `(tactic| (simp (disch := decide) only [StableHlo.after_cons, StableHlo.after_nil,
      StableHlo.nullary_result', StableHlo.unary_result', StableHlo.binary_result', StableHlo.ternary_result',
      StableHlo.reshape_result', StableHlo.nary_result',
      StableHlo.nullary_result_ne', StableHlo.unary_result_ne', StableHlo.binary_result_ne', StableHlo.ternary_result_ne',
      StableHlo.reshape_result_ne', StableHlo.nary_result_ne', Matrix.cons_val]))

variable (m : (ℓ : Loc nD τ sig) → Buf (Elt Ideal) ℓ) (c : Dev nD)

/-- The fifth operand is the output bias as a row. -/
theorem V_v35 (e : Fin 128) :
    (V m c main_v35 : S1x128.Idx → EReal) (ix2 (0 : Fin 1) e)
      = (m ((c : Thread nD τ).loc main_arg4) : S128.Idx → EReal) (ix1 e) := by
  show StableHlo.after hostOps0 (fun b => m (c, b)) (Proc.devRef .tc main_v35) (ix2 (0 : Fin 1) e) = _
  host_results
  exact shapeCast_a_1a_apply _ shapeCasts_S128_S1x128 0 e

/-- The fourth operand is the output weight transposed. -/
theorem V_v34 (j e : Fin 128) :
    (V m c main_v34 : S128x128.Idx → EReal) (ix2 j e)
      = (m ((c : Thread nD τ).loc main_arg3) : S128x128.Idx → EReal) (ix2 e j) := by
  show StableHlo.after hostOps0 (fun b => m (c, b)) (Proc.devRef .tc main_v34) (ix2 j e) = _
  host_results
  exact transpose_ix2_apply _ transposes_S128x128_S128x128_1_0 j e

/-! ## The regrouped weight and bias -/

/-- The second operand is the regrouped weight transposed: its column `cc` is row `fusedRow cc` of the original. -/
theorem V_v31 (d : Fin 128) (cc : Fin 384) :
    (V m c main_v31 : S128x384.Idx → EReal) (ix2 d cc)
      = (m ((c : Thread nD τ).loc main_arg1) : S384x128.Idx → EReal) (ix2 (fusedRow cc) d) := by
  show StableHlo.after hostOps0 (fun b => m (c, b)) (Proc.devRef .tc main_v31) (ix2 d cc) = _
  host_results
  refine (transpose_ix2_apply _ transposes_S384x128_S128x384_1_0 d cc).trans ?_
  refine (concat3_rows_apply _ _ _ cc d).trans ?_
  have hcc := cc.isLt
  by_cases h0 : cc.val < 128
  · -- the first piece: the query rows
    rw [dif_pos h0]
    host_results
    refine gatherRows_table _ lit0 (⟨cc.val, h0⟩ : Fin 128) d (fusedRow cc) ?_
    rw [lit0_val]
    show 48 * (cc.val / 16) + cc.val % 16 = 48 * (cc.val % 128 / 16) + 16 * (cc.val / 128) + cc.val % 16
    omega
  · rw [dif_neg h0]
    by_cases h1 : cc.val < 256
    · -- the second piece: the key rows
      rw [dif_pos h1]
      host_results
      refine gatherRows_table _ lit1 (⟨cc.val - 128, by omega⟩ : Fin 128) d (fusedRow cc) ?_
      rw [lit1_val]
      show 48 * ((cc.val - 128) / 16) + 16 + (cc.val - 128) % 16
        = 48 * (cc.val % 128 / 16) + 16 * (cc.val / 128) + cc.val % 16
      omega
    · -- the third piece: the value rows
      rw [dif_neg h1]
      host_results
      refine gatherRows_table _ lit2 (⟨cc.val - 256, by omega⟩ : Fin 128) d (fusedRow cc) ?_
      rw [lit2_val]
      show 48 * ((cc.val - 256) / 16) + 32 + (cc.val - 256) % 16
        = 48 * (cc.val % 128 / 16) + 16 * (cc.val / 128) + cc.val % 16
      omega

/-- The third operand is the regrouped bias as a row: its entry `cc` is entry `fusedRow cc` of the original. -/
theorem V_v33 (cc : Fin 384) :
    (V m c main_v33 : S1x384.Idx → EReal) (ix2 (0 : Fin 1) cc)
      = (m ((c : Thread nD τ).loc main_arg2) : S384.Idx → EReal) (ix1 (fusedRow cc)) := by
  show StableHlo.after hostOps0 (fun b => m (c, b)) (Proc.devRef .tc main_v33) (ix2 (0 : Fin 1) cc) = _
  host_results
  refine (shapeCast_a_1a_apply _ shapeCasts_S384_S1x384 0 cc).trans ?_
  refine (concat3_vec_apply _ _ _ cc).trans ?_
  have hcc := cc.isLt
  by_cases h0 : cc.val < 128
  · rw [dif_pos h0]
    host_results
    refine gatherVec_table _ lit0 (⟨cc.val, h0⟩ : Fin 128) (fusedRow cc) ?_
    rw [lit0_val]
    show 48 * (cc.val / 16) + cc.val % 16 = 48 * (cc.val % 128 / 16) + 16 * (cc.val / 128) + cc.val % 16
    omega
  · rw [dif_neg h0]
    by_cases h1 : cc.val < 256
    · rw [dif_pos h1]
      host_results
      refine gatherVec_table _ lit1 (⟨cc.val - 128, by omega⟩ : Fin 128) (fusedRow cc) ?_
      rw [lit1_val]
      show 48 * ((cc.val - 128) / 16) + 16 + (cc.val - 128) % 16
        = 48 * (cc.val % 128 / 16) + 16 * (cc.val / 128) + cc.val % 16
      omega
    · rw [dif_neg h1]
      host_results
      refine gatherVec_table _ lit2 (⟨cc.val - 256, by omega⟩ : Fin 128) (fusedRow cc) ?_
      rw [lit2_val]
      show 48 * ((cc.val - 256) / 16) + 32 + (cc.val - 256) % 16
        = 48 * (cc.val % 128 / 16) + 16 * (cc.val / 128) + cc.val % 16
      omega

/-- After the region: the slab's columns split into heads and lanes, the row and head axes swapped. -/
theorem tail_v38 (W : Valuation τ sig (Elt Ideal)) (b : Fin 32) (h : Fin 8) (s : Fin 1024) (d : Fin 16) :
    (StableHlo.after (hostOps1 (F := Ideal)) W (Proc.devRef .tc main_v38) : S32x8x1024x16.Idx → EReal) (ix4 b h s d)
      = (W (Proc.devRef .tc main_v36_1) : S32x1024x128.Idx → EReal)
          (ix3 b s (⟨16 * h.val + d.val, by have := h.isLt; have := d.isLt; omega⟩ : Fin 128)) := by
  host_results
  refine (transpose_apply _ _ transposes_S32x1024x8x16_S32x8x1024x16_0_2_1_3 (ix4 b h s d) (ix4 b s h d)
    (fun a => match a with | ⟨0, _⟩ => rfl | ⟨1, _⟩ => rfl | ⟨2, _⟩ => rfl | ⟨3, _⟩ => rfl)).trans ?_
  show shapeCast S32x1024x8x16 (W (Proc.devRef .tc main_v36_1) : S32x1024x128.Idx → EReal)
    shapeCasts_S32x1024x128_S32x1024x8x16 (ix4 b s h d) = _
  refine shapeCast_apply _ _ (ix4 b s h d) (ix3 b s (⟨16 * h.val + d.val, by have := h.isLt; have := d.isLt; omega⟩ : Fin 128)) ?_
  rw [Shape.rowMajor_val_three, Shape.rowMajor_val_four]
  show (b.val * 1024 + s.val) * 128 + (16 * h.val + d.val) = ((b.val * 1024 + s.val) * 8 + h.val) * 16 + d.val
  omega

end Cert.KernelIdeal.HostValue

end
-- ==== Proof.KIFinal.lean ====
/-
  From what each grid point writes back to the two result arrays after the run, at the ideal instance.

  Grid point `t` handles batch row `t`: its block of the activations is row `t` of the first argument, and the four weight
  operands are one whole block each — the regrouped weight and bias (row `c` of the regrouped weight is row `fusedRow c` of
  the second argument, likewise the bias), the fourth argument transposed and the fifth as a row.  So the lanes the body
  reads at its own columns (queries at `16 h + d`, keys at `128 + 16 h + d`, values at `256 + 16 h + d`) are the lanes of
  the projected batch row at the reference's columns (`48 h + d`, `48 h + 16 + d`, `48 h + 32 + d`): `lanes_eq`.  Hence the
  body's two whole-block stores are rows `t` of the specification's context slab and output (`slab_block`, `o_block`),
  every index of a result array lies in the block of the point that is its batch row (`cover5`, `cover6`), and the arrays end
  holding the specification (`final5`, `final6`).  The two host lines after the region re-lay the slab `[32,1024,128]` as
  `[32,8,1024,16]`: head `h`, lane `d` is column `16 h + d`, which is the specification's per-head output (`tail_attn`).
-/
import proofs.«162198_j1477468750124_2_alg».proof.Proof.KIData
import proofs.«162198_j1477468750124_2_alg».proof.Proof.Spec
import proofs.«162198_j1477468750124_2_alg».proof.Proof.KIPay
import proofs.«162198_j1477468750124_2_alg».proof.Proof.KIHost
import Idealize.ShloMosaic.Lib.Pipeline.Value
import Idealize.ShloMosaic.Lib.ValueIdx

noncomputable section

namespace Cert.KernelIdeal.Final

open Cert.KernelIdeal Cert.KernelIdeal.Gen Cert.KernelIdeal.Hand Cert.Attn
open Idealize.ShloMosaic Idealize.ShloMosaic.TcCoe Idealize.ShloMosaic.ValueIdx Idealize.SL.Sem
open Idealize.ShloMosaic.Pipeline (Dat)

/-! ## One point's stores are the specification's rows of one batch row -/

section Block
variable (a0 : SX.Idx → EReal) (a1 : SW.Idx → EReal) (a2 : SB.Idx → EReal) (a3 : SWo.Idx → EReal) (a4 : SBo.Idx → EReal)
variable (X0 : Vec Ideal S1x1024x128 .f32) (X1 : Vec Ideal S128x384 .f32) (X2 : Vec Ideal S1x384 .f32)
  (X3 : Vec Ideal S128x128 .f32) (X4 : Vec Ideal S1x128 .f32) (b : Fin 32)

/-- When the point's blocks are batch row `b` of the activations and the regrouped weight and bias, the lanes the body
    reads at its regrouped columns are the lanes of the projected batch row at the original columns. -/
theorem lanes_eq (col : Fin 8 → Fin 16 → Fin 384) (colF : Fin 8 → Fin 16 → Fin 384)
    (hcol : ∀ h d, fusedRow (colF h d) = col h d)
    (h0 : ∀ s d, X0 (ix3 (0 : Fin 1) s d) = a0 (ix3 b s d))
    (h1 : ∀ d cc, X1 (ix2 d cc) = a1 (ix2 (fusedRow cc) d))
    (h2 : ∀ cc, X2 (ix2 (0 : Fin 1) cc) = a2 (ix1 (fusedRow cc))) :
    lanesOf (projF X0 X1 X2) colF = lanesOf (Pb a0 a1 a2 b) col := by
  funext h s d
  unfold lanesOf projF Pb proj
  rw [h2, hcol]
  refine congrArg (· + _) (Finset.sum_congr rfl fun k _ => ?_)
  rw [h0, h1, hcol]

theorem slab_block
    (h0 : ∀ s d, X0 (ix3 (0 : Fin 1) s d) = a0 (ix3 b s d))
    (h1 : ∀ d cc, X1 (ix2 d cc) = a1 (ix2 (fusedRow cc) d))
    (h2 : ∀ cc, X2 (ix2 (0 : Fin 1) cc) = a2 (ix1 (fusedRow cc)))
    (s : Fin 1024) (j : Fin 128) :
    slabPay (F := Ideal) X0 X1 X2 (ix3 (0 : Fin 1) s j) = G_slab a0 a1 a2 (ix3 b s j) := by
  rw [PayValue.slabPay_apply, lanes_eq a0 a1 a2 X0 X1 X2 b qcol qcolF fusedRow_q h0 h1 h2,
    lanes_eq a0 a1 a2 X0 X1 X2 b kcol kcolF fusedRow_k h0 h1 h2, lanes_eq a0 a1 a2 X0 X1 X2 b vcol vcolF fusedRow_v h0 h1 h2]
  rfl

theorem o_block
    (h0 : ∀ s d, X0 (ix3 (0 : Fin 1) s d) = a0 (ix3 b s d))
    (h1 : ∀ d cc, X1 (ix2 d cc) = a1 (ix2 (fusedRow cc) d))
    (h2 : ∀ cc, X2 (ix2 (0 : Fin 1) cc) = a2 (ix1 (fusedRow cc)))
    (h3 : ∀ j e, X3 (ix2 j e) = a3 (ix2 e j))
    (h4 : ∀ e, X4 (ix2 (0 : Fin 1) e) = a4 (ix1 e))
    (s : Fin 1024) (e : Fin 128) :
    oPay (F := Ideal) X0 X1 X2 X3 X4 (ix3 (0 : Fin 1) s e) = G_o a0 a1 a2 a3 a4 (ix3 b s e) := by
  rw [PayValue.oPay_apply, lanes_eq a0 a1 a2 X0 X1 X2 b qcol qcolF fusedRow_q h0 h1 h2,
    lanes_eq a0 a1 a2 X0 X1 X2 b kcol kcolF fusedRow_k h0 h1 h2, lanes_eq a0 a1 a2 X0 X1 X2 b vcol vcolF fusedRow_v h0 h1 h2,
    show (fun e j => X3 (ix2 j e)) = (fun e j => a3 (ix2 e j)) from funext fun e => funext fun j => h3 j e,
    show (fun e => X4 (ix2 (0 : Fin 1) e)) = (fun e => a4 (ix1 e)) from funext h4]
  rfl

end Block

/-! ## The arrays the region finds, and the blocks the points read -/

variable (m : (ℓ : Loc nD τ sig) → Buf (Elt Ideal) ℓ)

/-- The argument arrays, as functions of an index. -/
abbrev a0 (c : Dev nD) : SX.Idx → EReal := m ((c : Thread nD τ).loc main_arg0)
abbrev a1 (c : Dev nD) : SW.Idx → EReal := m ((c : Thread nD τ).loc main_arg1)
abbrev a2 (c : Dev nD) : SB.Idx → EReal := m ((c : Thread nD τ).loc main_arg2)
abbrev a3 (c : Dev nD) : SWo.Idx → EReal := m ((c : Thread nD τ).loc main_arg3)
abbrev a4 (c : Dev nD) : SBo.Idx → EReal := m ((c : Thread nD τ).loc main_arg4)

/-- No host line before the region writes the activations: the region finds them as launched. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- The grid point as a batch row. -/
def bOf (t : Fin cfg0.N) : Fin 32 := ⟨t.val, lt_of_lt_of_eq t.isLt N_0⟩

theorem hz3 : (![0, 0, 0] : Fin 3 → Nat) = fun _ => 0 := funext fun a => by fin_cases a <;> rfl

/-- The printed index maps, decided over the grid: the activations' and both results' blocks move with the point along
    the batch axis; the four weight operands are one whole block. -/
theorem idx_0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx_5 : ∀ t : Fin cfg0.N, win0_5.index t (0 : Fin 3) = t.val ∧ win0_5.index t (1 : Fin 3) = 0 ∧ win0_5.index t (2 : Fin 3) = 0 :=
  (by decide +kernel : ∀ t : Fin grid0.N, _)
theorem idx_6 : ∀ t : Fin cfg0.N, win0_6.index t (0 : Fin 3) = t.val ∧ win0_6.index t (1 : Fin 3) = 0 ∧ win0_6.index t (2 : Fin 3) = 0 :=
  (by decide +kernel : ∀ t : Fin grid0.N, _)
theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)

/-- Point `t`'s block of the activations is batch row `t`. -/
theorem blk_0 (c : Dev nD) (t : Fin cfg0.N) (s : Fin 1024) (d : Fin 128) :
    (iblk m c 0 t : Vec Ideal S1x1024x128 .f32) (ix3 (0 : Fin 1) s d) = a0 m c (ix3 (bOf t) s d) := by
  show V m c main_arg0 (((cfg0.win 0).blk t).view.emb (ix3 (0 : Fin 1) s d)) = _
  rw [V_arg0]
  refine congrArg _ ?_
  obtain ⟨e0, e1, e2⟩ := idx_0 t
  funext a; apply Fin.ext
  match a with
  | ⟨0, _⟩ => show win0_0.index t (0 : Fin 3) * 1 + 1 * 0 = t.val; omega
  | ⟨1, _⟩ => show win0_0.index t (1 : Fin 3) * 1024 + 1 * s.val = s.val; omega
  | ⟨2, _⟩ => show win0_0.index t (2 : Fin 3) * 128 + 1 * d.val = d.val; omega

/-- The regrouped weight's one block is the whole array, whose row `cc` is the original's row `fusedRow cc`. -/
theorem blk_1 (c : Dev nD) (t : Fin cfg0.N) (d : Fin 128) (cc : Fin 384) :
    (iblk m c 1 t : Vec Ideal S128x384 .f32) (ix2 d cc) = a1 m c (ix2 (fusedRow cc) d) := by
  show V m c main_v31 (((cfg0.win 1).blk t).view.emb (ix2 d cc)) = _
  refine Eq.trans ?_ (HostValue.V_v31 m c d cc)
  refine congrArg _ ?_
  obtain ⟨e0, e1⟩ := idx_1 t
  funext a; apply Fin.ext
  match a with
  | ⟨0, _⟩ => show win0_1.index t (0 : Fin 2) * 128 + 1 * d.val = d.val; omega
  | ⟨1, _⟩ => show win0_1.index t (1 : Fin 2) * 384 + 1 * cc.val = cc.val; omega

theorem blk_2 (c : Dev nD) (t : Fin cfg0.N) (cc : Fin 384) :
    (iblk m c 2 t : Vec Ideal S1x384 .f32) (ix2 (0 : Fin 1) cc) = a2 m c (ix1 (fusedRow cc)) := by
  show V m c main_v33 (((cfg0.win 2).blk t).view.emb (ix2 (0 : Fin 1) cc)) = _
  refine Eq.trans ?_ (HostValue.V_v33 m c cc)
  refine congrArg _ ?_
  obtain ⟨e0, e1⟩ := idx_2 t
  funext a; apply Fin.ext
  match a with
  | ⟨0, _⟩ => show win0_2.index t (0 : Fin 2) * 1 + 1 * 0 = 0; omega
  | ⟨1, _⟩ => show win0_2.index t (1 : Fin 2) * 384 + 1 * cc.val = cc.val; omega

theorem blk_3 (c : Dev nD) (t : Fin cfg0.N) (j e : Fin 128) :
    (iblk m c 3 t : Vec Ideal S128x128 .f32) (ix2 j e) = a3 m c (ix2 e j) := by
  show V m c main_v34 (((cfg0.win 3).blk t).view.emb (ix2 j e)) = _
  refine Eq.trans ?_ (HostValue.V_v34 m c j e)
  refine congrArg _ ?_
  obtain ⟨e0, e1⟩ := idx_3 t
  funext a; apply Fin.ext
  match a with
  | ⟨0, _⟩ => show win0_3.index t (0 : Fin 2) * 128 + 1 * j.val = j.val; omega
  | ⟨1, _⟩ => show win0_3.index t (1 : Fin 2) * 128 + 1 * e.val = e.val; omega

theorem blk_4 (c : Dev nD) (t : Fin cfg0.N) (e : Fin 128) :
    (iblk m c 4 t : Vec Ideal S1x128 .f32) (ix2 (0 : Fin 1) e) = a4 m c (ix1 e) := by
  show V m c main_v35 (((cfg0.win 4).blk t).view.emb (ix2 (0 : Fin 1) e)) = _
  refine Eq.trans ?_ (HostValue.V_v35 m c e)
  refine congrArg _ ?_
  obtain ⟨e0, e1⟩ := idx_4 t
  funext a; apply Fin.ext
  match a with
  | ⟨0, _⟩ => show win0_4.index t (0 : Fin 2) * 1 + 1 * 0 = 0; omega
  | ⟨1, _⟩ => show win0_4.index t (1 : Fin 2) * 128 + 1 * e.val = e.val; omega

/-! ## What each point writes back, the cover, and the two arrays after the run -/

/-- What the first result's array ends holding. -/
def Go (c : Dev nD) : SX.Idx → EReal := G_o (a0 m c) (a1 m c) (a2 m c) (a3 m c) (a4 m c)
/-- What the context slab's array ends holding. -/
def Gs (c : Dev nD) : SX.Idx → EReal := G_slab (a0 m c) (a1 m c) (a2 m c)

/-- Point `t` writes back block `t` of `Go`: its store is the output rows of batch row `t`. -/
theorem flushed5_eq (c : Dev nD) (t : Fin cfg0.N) :
    (dats m 0 c).flushed 5 t = ((cfg0.win 5).blk t).view.read (Elt Ideal) (Go m c) := by
  show (cfg0.win 5).cut (grid0.coords t) ((dats m 0 c).after 5 t) = _
  rw [after0_5]
  unfold out0_5
  rw [View.canon_unit_zero hz3]
  funext y
  obtain ⟨z, s, e, rfl⟩ : ∃ (z : Fin 1) (s : Fin 1024) (e : Fin 128), y = ix3 z s e := ⟨y 0, y 1, y 2, eq_ix3 y⟩
  obtain rfl : z = 0 := Subsingleton.elim _ _
  show oPay (F := Ideal) (iblk m c 0 t) (iblk m c 1 t) (iblk m c 2 t) (iblk m c 3 t) (iblk m c 4 t) (ix3 (0 : Fin 1) s e)
    = Go m c (((cfg0.win 5).blk t).view.emb (ix3 (0 : Fin 1) s e))
  rw [o_block (a0 m c) (a1 m c) (a2 m c) (a3 m c) (a4 m c) _ _ _ _ _ (bOf t) (blk_0 m c t) (blk_1 m c t) (blk_2 m c t)
    (blk_3 m c t) (blk_4 m c t) s e]
  refine congrArg (Go m c) ?_
  obtain ⟨e0, e1, e2⟩ := idx_5 t
  funext a; apply Fin.ext
  match a with
  | ⟨0, _⟩ => show t.val = win0_5.index t (0 : Fin 3) * 1 + 1 * 0; omega
  | ⟨1, _⟩ => show s.val = win0_5.index t (1 : Fin 3) * 1024 + 1 * s.val; omega
  | ⟨2, _⟩ => show e.val = win0_5.index t (2 : Fin 3) * 128 + 1 * e.val; omega

/-- Point `t` writes back block `t` of `Gs`: its store is the context rows of batch row `t`. -/
theorem flushed6_eq (c : Dev nD) (t : Fin cfg0.N) :
    (dats m 0 c).flushed 6 t = ((cfg0.win 6).blk t).view.read (Elt Ideal) (Gs m c) := by
  show (cfg0.win 6).cut (grid0.coords t) ((dats m 0 c).after 6 t) = _
  rw [after0_6]
  unfold out0_6
  rw [View.canon_unit_zero hz3]
  funext y
  obtain ⟨z, s, j, rfl⟩ : ∃ (z : Fin 1) (s : Fin 1024) (j : Fin 128), y = ix3 z s j := ⟨y 0, y 1, y 2, eq_ix3 y⟩
  obtain rfl : z = 0 := Subsingleton.elim _ _
  show slabPay (F := Ideal) (iblk m c 0 t) (iblk m c 1 t) (iblk m c 2 t) (ix3 (0 : Fin 1) s j)
    = Gs m c (((cfg0.win 6).blk t).view.emb (ix3 (0 : Fin 1) s j))
  rw [slab_block (a0 m c) (a1 m c) (a2 m c) _ _ _ (bOf t) (blk_0 m c t) (blk_1 m c t) (blk_2 m c t) s j]
  refine congrArg (Gs m c) ?_
  obtain ⟨e0, e1, e2⟩ := idx_6 t
  funext a; apply Fin.ext
  match a with
  | ⟨0, _⟩ => show t.val = win0_6.index t (0 : Fin 3) * 1 + 1 * 0; omega
  | ⟨1, _⟩ => show s.val = win0_6.index t (1 : Fin 3) * 1024 + 1 * s.val; omega
  | ⟨2, _⟩ => show j.val = win0_6.index t (2 : Fin 3) * 128 + 1 * j.val; omega

/-- An index of a result array is in point `t`'s block iff each coordinate is in the block's range on its axis. -/
theorem mem_blk5 (t : Fin cfg0.N) (i : S32x1024x128.Idx) :
    i ∈ ((cfg0.win 5).blk t).view.set ↔ ∀ a : Fin 3, win0_5.index t a * S1x1024x128.size a ≤ (i a).val ∧ (i a).val < win0_5.index t a * S1x1024x128.size a + S1x1024x128.size a := by
  show i ∈ ((View.whole main_v36_0).slice (win0_5.rect t)).set ↔ _
  rw [View.set_slice_whole, Rect.mem_set_unit]
  exact Iff.rfl
theorem mem_blk6 (t : Fin cfg0.N) (i : S32x1024x128.Idx) :
    i ∈ ((cfg0.win 6).blk t).view.set ↔ ∀ a : Fin 3, win0_6.index t a * S1x1024x128.size a ≤ (i a).val ∧ (i a).val < win0_6.index t a * S1x1024x128.size a + S1x1024x128.size a := by
  show i ∈ ((View.whole main_v36_1).slice (win0_6.rect t)).set ↔ _
  rw [View.set_slice_whole, Rect.mem_set_unit]
  exact Iff.rfl

/-- Every index of a result array lies in the block of the point that is its batch row. -/
theorem cover5 (i : S32x1024x128.Idx) : ∃ t : Fin cfg0.N, (cfg0.win 5).flush t = true ∧ i ∈ ((cfg0.win 5).blk t).view.set := by
  have h0 : (i 0).val < 32 := (i 0).isLt
  have h1 : (i 1).val < 1024 := (i 1).isLt
  have h2 : (i 2).val < 128 := (i 2).isLt
  refine ⟨⟨(i 0).val, lt_of_lt_of_eq h0 N_0.symm⟩, flush0_5 _, ?_⟩
  rw [mem_blk5]
  obtain ⟨e0, e1, e2⟩ := idx_5 ⟨(i 0).val, lt_of_lt_of_eq h0 N_0.symm⟩
  intro a
  match a with
  | ⟨0, _⟩ => show win0_5.index _ (0 : Fin 3) * 1 ≤ (i 0).val ∧ (i 0).val < win0_5.index _ (0 : Fin 3) * 1 + 1; rw [e0]; show (i 0).val * 1 ≤ (i 0).val ∧ (i 0).val < (i 0).val * 1 + 1; omega
  | ⟨1, _⟩ => show win0_5.index _ (1 : Fin 3) * 1024 ≤ (i 1).val ∧ (i 1).val < win0_5.index _ (1 : Fin 3) * 1024 + 1024; rw [e1]; omega
  | ⟨2, _⟩ => show win0_5.index _ (2 : Fin 3) * 128 ≤ (i 2).val ∧ (i 2).val < win0_5.index _ (2 : Fin 3) * 128 + 128; rw [e2]; omega
theorem cover6 (i : S32x1024x128.Idx) : ∃ t : Fin cfg0.N, (cfg0.win 6).flush t = true ∧ i ∈ ((cfg0.win 6).blk t).view.set := by
  have h0 : (i 0).val < 32 := (i 0).isLt
  have h1 : (i 1).val < 1024 := (i 1).isLt
  have h2 : (i 2).val < 128 := (i 2).isLt
  refine ⟨⟨(i 0).val, lt_of_lt_of_eq h0 N_0.symm⟩, flush0_6 _, ?_⟩
  rw [mem_blk6]
  obtain ⟨e0, e1, e2⟩ := idx_6 ⟨(i 0).val, lt_of_lt_of_eq h0 N_0.symm⟩
  intro a
  match a with
  | ⟨0, _⟩ => show win0_6.index _ (0 : Fin 3) * 1 ≤ (i 0).val ∧ (i 0).val < win0_6.index _ (0 : Fin 3) * 1 + 1; rw [e0]; show (i 0).val * 1 ≤ (i 0).val ∧ (i 0).val < (i 0).val * 1 + 1; omega
  | ⟨1, _⟩ => show win0_6.index _ (1 : Fin 3) * 1024 ≤ (i 1).val ∧ (i 1).val < win0_6.index _ (1 : Fin 3) * 1024 + 1024; rw [e1]; omega
  | ⟨2, _⟩ => show win0_6.index _ (2 : Fin 3) * 128 ≤ (i 2).val ∧ (i 2).val < win0_6.index _ (2 : Fin 3) * 128 + 128; rw [e2]; omega

/-- After the run the first result's array is `Go` and the context slab's is `Gs`. -/
theorem final5 (c : Dev nD) : (dats m 0 c).arrAt 5 cfg0.N = Go m c :=
  (dats m 0 c).arrAt_eq_of_cover 5 (Go m c) (fun t _ => flushed5_eq m c t) cover5
theorem final6 (c : Dev nD) : (dats m 0 c).arrAt 6 cfg0.N = Gs m c :=
  (dats m 0 c).arrAt_eq_of_cover 6 (Gs m c) (fun t _ => flushed6_eq m c t) cover6

/-! ## The results after the run -/

/-- The second result is the context slab re-laid by the two host lines after the region: head `h`, lane `d` of batch row
    `b`, query row `s` is the slab's column `16 h + d` — the specification's per-head output. -/
theorem tail_attn (c : Dev nD) :
    Pipeline.afterTail₀ cfgs (dats m) 0 (V0 m) [hostOps1] c main_v38 = G_attn (a0 m c) (a1 m c) (a2 m c) := by
  funext i
  obtain ⟨b, h, s, d, rfl⟩ : ∃ (b : Fin 32) (h : Fin 8) (s : Fin 1024) (d : Fin 16), i = ix4 b h s d :=
    ⟨i 0, i 1, i 2, i 3, eq_ix4 i⟩
  unfold Pipeline.afterTail₀
  show (StableHlo.after (hostOps1 (F := Ideal)) _ (Proc.devRef .tc main_v38) : S32x8x1024x16.Idx → EReal) (ix4 b h s d) = _
  rw [HostValue.tail_v38, G_attn_eq_slab]
  show (Pipeline.withArrays spec0 c (V0 m c) (fun w => (dats m 0 c).arrAt w cfg0.N) (Proc.devRef .tc (Pipeline.arrRef spec0 6)) : S32x1024x128.Idx → EReal) _ = _
  rw [Pipeline.withArrays_arr spec0 launch0.win.arr_inj c _ _ 6, final6]
  rfl

/-- At a final state of the frame run the two results are the specification's. -/
theorem results_of_post (r : PUnit × MemSt nD τ sig (Elt Ideal))
    (hpost : Pipeline.FramePost cfgs (dats m) 0 (Pipeline.afterTail₀ cfgs (dats m) 0 (V0 m) [hostOps1]) r) (c : Dev nD) :
    r.2.mem ((c.tc : Thread nD τ).loc main_v36_0) = G_o (a0 m c) (a1 m c) (a2 m c) (a3 m c) (a4 m c)
    ∧ r.2.mem ((c.tc : Thread nD τ).loc main_v38) = G_attn (a0 m c) (a1 m c) (a2 m c) :=
  ⟨((hpost c).1 5).trans (final5 m c),
   ((hpost c).2 main_v38 (Pipeline.mem_restRefs_of main_v38 (by decide) (by decide))).trans (tail_attn m c)⟩

end Cert.KernelIdeal.Final

end
-- ==== Proof.RefValueLanes.lean ====
/-
  The reference's fused projection and its query, key and value lanes, read at literal coordinates.

  The projection stage at (b, s, e) is the row-times-weight sum plus the bias entry, which is the specification's `Pb`.
  The reshape [32,1024,384] → [32,1024,8,48] followed by the transpose to [32,8,1024,48] and a slice of sixteen lanes at
  offset 0, 16 or 32 reads the projection at column 48 h + d, 48 h + 16 + d or 48 h + 32 + d: the row-major position
  ((b * 1024 + s) * 8 + h) * 48 + c splits as batch b, row s and column 48 h + c since c < 48 and h < 8.
-/
import proofs.«162198_j1477468750124_2_alg».proof.Proof.Spec
import proofs.«162198_j1477468750124_2_alg».proof.Proof.Gen.ReferenceIdeal.Read

noncomputable section

namespace Cert.ReferenceIdeal.RefValue

open Cert.ReferenceIdeal Cert.ReferenceIdeal.Read Cert.Attn
open Idealize.ShloMosaic Idealize.ShloMosaic.ValueIdx

variable (x0 : (⟨S32x1024x128, .f32⟩ : BufTy).Contents (Elt Ideal)) (x1 : (⟨S384x128, .f32⟩ : BufTy).Contents (Elt Ideal))
  (x2 : (⟨S384, .f32⟩ : BufTy).Contents (Elt Ideal))

/-- The projection stage at batch `b`, row `s`, column `e` is `(x Wᵀ + bias)[s, e]` of that batch row. -/
theorem v3_at (b : Fin 32) (s : Fin 1024) (e : Fin 384) :
    val_main_v3 (F := Ideal) x0 x1 x2 (ix3 b s e) = Pb x0 x1 x2 b s e := by
  rw [val_main_v3_apply, val_main_v0_apply, val_main_v2_apply, val_main_v1_apply]
  have e1 : ∀ k : Fin 128, lidx_main_v0 (ix3 b s e) k = ix3 b s k := fun k => funext fun a => by
    match a with | ⟨0, _⟩ => rfl | ⟨1, _⟩ => rfl | ⟨2, _⟩ => rfl
  have e2 : ∀ k : Fin 128, ridx_main_v0 (ix3 b s e) k = ix2 e k := fun k => funext fun a => by
    match a with | ⟨0, _⟩ => rfl | ⟨1, _⟩ => rfl
  have e3 : idx_main_v1 (idx_main_v2 (ix3 b s e)) = ix1 e := funext fun a => by
    match a with | ⟨0, _⟩ => rfl
  show (∑ k : Fin 128, x0 (lidx_main_v0 (ix3 b s e) k) * x1 (ridx_main_v0 (ix3 b s e) k)) + x2 (idx_main_v1 (idx_main_v2 (ix3 b s e)))
    = (∑ d : Fin 128, x0 (ix3 b s d) * x1 (ix2 e d)) + x2 (ix1 e)
  rw [e3]
  refine congrArg (· + x2 (ix1 e)) (Finset.sum_congr rfl fun k _ => ?_)
  rw [e1, e2]

/-- The reshaped and transposed projection at (b, h, s, c) is the projection at column `48 h + c`. -/
theorem v5_at (b : Fin 32) (h : Fin 8) (s : Fin 1024) (c : Fin 48) :
    val_main_v5 (F := Ideal) x0 x1 x2 (ix4 b h s c)
      = Pb x0 x1 x2 b s ⟨48 * h.val + c.val, by have := h.isLt; have := c.isLt; omega⟩ := by
  rw [val_main_v5_apply, val_main_v4_apply]
  have hb := b.isLt; have hh := h.isLt; have hs := s.isLt; have hc := c.isLt
  have e : idx_main_v4 (idx_main_v5 (ix4 b h s c))
      = ix3 b s (⟨48 * h.val + c.val, by omega⟩ : Fin 384) := funext fun a => Fin.ext (by
    match a with
    | ⟨0, _⟩ => show (((b.val * 1024 + s.val) * 8 + h.val) * 48 + c.val) / 393216 = b.val; omega
    | ⟨1, _⟩ => show (((b.val * 1024 + s.val) * 8 + h.val) * 48 + c.val) / 384 % 1024 = s.val; omega
    | ⟨2, _⟩ => show (((b.val * 1024 + s.val) * 8 + h.val) * 48 + c.val) % 384 = 48 * h.val + c.val; omega)
  rw [e]
  exact v3_at x0 x1 x2 b s _

/-- The query lanes: the first slice at (b, h, s, d) is the projection at column `qcol h d`. -/
theorem v6_at (b : Fin 32) (h : Fin 8) (s : Fin 1024) (d : Fin 16) :
    val_main_v6 (F := Ideal) x0 x1 x2 (ix4 b h s d) = lanesOf (Pb x0 x1 x2 b) qcol h s d := by
  rw [val_main_v6_apply]
  have hd := d.isLt
  have e : idx_main_v6 (ix4 b h s d) = ix4 b h s (⟨d.val, by omega⟩ : Fin 48) := funext fun a => by
    match a with | ⟨0, _⟩ => rfl | ⟨1, _⟩ => rfl | ⟨2, _⟩ => rfl | ⟨3, _⟩ => rfl
  rw [e, v5_at]
  rfl

/-- The key lanes: the second slice at (b, h, s, d) is the projection at column `kcol h d`. -/
theorem v7_at (b : Fin 32) (h : Fin 8) (s : Fin 1024) (d : Fin 16) :
    val_main_v7 (F := Ideal) x0 x1 x2 (ix4 b h s d) = lanesOf (Pb x0 x1 x2 b) kcol h s d := by
  rw [val_main_v7_apply]
  have hd := d.isLt
  have e : idx_main_v7 (ix4 b h s d) = ix4 b h s (⟨16 + d.val, by omega⟩ : Fin 48) := funext fun a => by
    match a with | ⟨0, _⟩ => rfl | ⟨1, _⟩ => rfl | ⟨2, _⟩ => rfl | ⟨3, _⟩ => rfl
  rw [e, v5_at]
  show Pb x0 x1 x2 b s _ = Pb x0 x1 x2 b s (kcol h d)
  exact congrArg (Pb x0 x1 x2 b s) (Fin.ext (by show 48 * h.val + (16 + d.val) = 48 * h.val + 16 + d.val; omega))

/-- The value lanes: the third slice at (b, h, s, d) is the projection at column `vcol h d`. -/
theorem v8_at (b : Fin 32) (h : Fin 8) (s : Fin 1024) (d : Fin 16) :
    val_main_v8 (F := Ideal) x0 x1 x2 (ix4 b h s d) = lanesOf (Pb x0 x1 x2 b) vcol h s d := by
  rw [val_main_v8_apply]
  have hd := d.isLt
  have e : idx_main_v8 (ix4 b h s d) = ix4 b h s (⟨32 + d.val, by omega⟩ : Fin 48) := funext fun a => by
    match a with | ⟨0, _⟩ => rfl | ⟨1, _⟩ => rfl | ⟨2, _⟩ => rfl | ⟨3, _⟩ => rfl
  rw [e, v5_at]
  show Pb x0 x1 x2 b s _ = Pb x0 x1 x2 b s (vcol h d)
  exact congrArg (Pb x0 x1 x2 b s) (Fin.ext (by show 48 * h.val + (32 + d.val) = 48 * h.val + 32 + d.val; omega))

end Cert.ReferenceIdeal.RefValue

end
-- ==== Proof.RefValueSoft.lean ====
/-
  The reference's softmax stages, read at literal coordinates.

  The logits are the lane sums of query times key.  The row maximum is the host's reduce with a maximum body over the key
  axis, which for a commutative and associative body is the fold of that body from the initial word over the axis's
  coordinates; the reference then takes the maximum of the same word with it, and on the extended reals
  max a (fold max a f) = fold max a f for every a, because a fold of max is at least its start.  The row sum is the zero
  word plus the sum over the key axis, and the zero word denotes 0.
-/
import proofs.«162198_j1477468750124_2_alg».proof.Proof.RefValueLanes

noncomputable section

namespace Cert.ReferenceIdeal.RefValue

open Cert.ReferenceIdeal Cert.ReferenceIdeal.Gen Cert.ReferenceIdeal.Read Cert.Attn
open Idealize.ShloMosaic Idealize.ShloMosaic.ValueIdx

variable (x0 : (⟨S32x1024x128, .f32⟩ : BufTy).Contents (Elt Ideal)) (x1 : (⟨S384x128, .f32⟩ : BufTy).Contents (Elt Ideal))
  (x2 : (⟨S384, .f32⟩ : BufTy).Contents (Elt Ideal))

/-- Batch row `b`'s query lanes in the reference's column order. -/
abbrev Qb (b : Fin 32) : Lanes := lanesOf (Pb x0 x1 x2 b) qcol
/-- Batch row `b`'s key lanes in the reference's column order. -/
abbrev Kb (b : Fin 32) : Lanes := lanesOf (Pb x0 x1 x2 b) kcol
/-- Batch row `b`'s value lanes in the reference's column order. -/
abbrev Vb (b : Fin 32) : Lanes := lanesOf (Pb x0 x1 x2 b) vcol

/-- The logits stage at (b, h, s, t) is head `h`'s logit of query row `s` against key row `t`. -/
theorem v9_at (b : Fin 32) (h : Fin 8) (s t : Fin 1024) :
    val_main_v9 (F := Ideal) x0 x1 x2 (ix4 b h s t) = logit (Qb x0 x1 x2 b) (Kb x0 x1 x2 b) h s t := by
  rw [val_main_v9_apply]
  have e1 : ∀ k : Fin 16, lidx_main_v9 (ix4 b h s t) k = ix4 b h s k := fun k => funext fun a => by
    match a with | ⟨0, _⟩ => rfl | ⟨1, _⟩ => rfl | ⟨2, _⟩ => rfl | ⟨3, _⟩ => rfl
  have e2 : ∀ k : Fin 16, ridx_main_v9 (ix4 b h s t) k = ix4 b h t k := fun k => funext fun a => by
    match a with | ⟨0, _⟩ => rfl | ⟨1, _⟩ => rfl | ⟨2, _⟩ => rfl | ⟨3, _⟩ => rfl
  unfold logit
  refine Finset.sum_congr rfl fun k _ => ?_
  rw [e1, e2, v6_at, v7_at]

/-- The reduced index (b, h, s) with key row `k` put back on the last axis is (b, h, s, k). -/
theorem lift_at (hR : S32x8x1024x1024.Reduces [3] S32x8x1024) (b : Fin 32) (h : Fin 8) (s : Fin 1024)
    (k : Fin (S32x8x1024x1024.size 3)) :
    hR.lift (ix3 b h s) k = ix4 b h s (⟨k.val, k.isLt⟩ : Fin 1024) := by
  funext c; apply Fin.ext
  rw [hR.lift_val]
  match c with
  | ⟨0, _⟩ => rfl
  | ⟨1, _⟩ => rfl
  | ⟨2, _⟩ => rfl
  | ⟨3, _⟩ => rfl

/-- The host's reduce with a maximum body over the last axis of a [32,8,1024,1024] array is, at `j`, the fold of that body
    from the initial value's element over the axis's coordinates. -/
theorem reduce_max_fold (y : S32x8x1024x1024.Idx → Ideal .f32) (c0 : S_.Idx → Ideal .f32)
    (hR : S32x8x1024x1024.Reduces [3] S32x8x1024) (j : S32x8x1024.Idx) :
    Host.reduce FloatOps.maximumf y c0 reducesTo_S32x8x1024x1024_S32x8x1024_d3 h_S_ j
      = (Finset.univ : Finset (Fin (S32x8x1024x1024.size 3))).fold FloatOps.maximumf (c0 (Shape.Idx.first h_S_)) (y ∘ hR.lift j) :=
  Host.reduce_eq_fold_single (s := S32x8x1024x1024) (t := S32x8x1024) (a := 3) (u := S_) (α := Ideal .f32)
    FloatOps.maximumf y c0 reducesTo_S32x8x1024x1024_S32x8x1024_d3 hR h_S_ j

/-- The host's maximum reduce over the key axis at (b, h, s) is the fold of `max` from the −∞ word over the row's logits. -/
theorem v10_at (b : Fin 32) (h : Fin 8) (s : Fin 1024) :
    val_main_v10 (F := Ideal) x0 x1 x2 (ix3 b h s) = rowMax (Qb x0 x1 x2 b) (Kb x0 x1 x2 b) h s := by
  unfold val_main_v10
  have hR : S32x8x1024x1024.Reduces [3] S32x8x1024 := by decide
  refine (reduce_max_fold (val_main_v9 (F := Ideal) x0 x1 x2) (val_main_cst (F := Ideal)) hR (ix3 b h s)).trans ?_
  have hf : (val_main_v9 (F := Ideal) x0 x1 x2 ∘ hR.lift (ix3 b h s))
      = fun t : Fin 1024 => logit (Qb x0 x1 x2 b) (Kb x0 x1 x2 b) h s t := funext fun k => by
    show val_main_v9 (F := Ideal) x0 x1 x2 (hR.lift (ix3 b h s) k) = _
    rw [lift_at, v9_at]
    rfl
  rw [hf]
  rfl

/-- The row maximum stage at (b, h, s) is the specification's row maximum. -/
theorem v12_at (b : Fin 32) (h : Fin 8) (s : Fin 1024) :
    val_main_v12 (F := Ideal) x0 x1 x2 (ix3 b h s) = rowMax (Qb x0 x1 x2 b) (Kb x0 x1 x2 b) h s := by
  rw [val_main_v12_apply, v10_at, val_main_v11_apply]
  show max ninf (rowMax (Qb x0 x1 x2 b) (Kb x0 x1 x2 b) h s) = rowMax (Qb x0 x1 x2 b) (Kb x0 x1 x2 b) h s
  refine max_eq_right ?_
  unfold rowMax
  exact (Finset.le_fold_max _).2 (Or.inl le_rfl)

/-- The exponential stage at (b, h, s, t) is the shifted exponential. -/
theorem v16_at (b : Fin 32) (h : Fin 8) (s t : Fin 1024) :
    val_main_v16 (F := Ideal) x0 x1 x2 (ix4 b h s t) = pexp (Qb x0 x1 x2 b) (Kb x0 x1 x2 b) h s t := by
  rw [val_main_v16_apply, val_main_v15_apply, val_main_v14_apply, val_main_v13_apply, v9_at]
  have e : idx_main_v13 (idx_main_v14 (ix4 b h s t)) = ix3 b h s := funext fun a => by
    match a with | ⟨0, _⟩ => rfl | ⟨1, _⟩ => rfl | ⟨2, _⟩ => rfl
  rw [e, v12_at]
  rfl

/-- The row sum stage at (b, h, s) is the sum of the row's shifted exponentials: the zero word adds nothing. -/
theorem v17_at (b : Fin 32) (h : Fin 8) (s : Fin 1024) :
    val_main_v17 (F := Ideal) x0 x1 x2 (ix3 b h s) = ∑ t : Fin 1024, pexp (Qb x0 x1 x2 b) (Kb x0 x1 x2 b) h s t := by
  rw [val_main_v17_apply]
  have e : ∀ k : Fin 1024, idx_main_v17 (ix3 b h s) k = ix4 b h s k := fun k => funext fun a => by
    match a with | ⟨0, _⟩ => rfl | ⟨1, _⟩ => rfl | ⟨2, _⟩ => rfl | ⟨3, _⟩ => rfl
  have z : (val_main_cst_1 (F := Ideal)) (Shape.Idx.first h_S_) = (0 : EReal) := by
    show Ideal.ofBits .f32 0x00000000#32 = 0
    exact Ideal.ofBits_zero_f32
  rw [z, zero_add]
  refine Finset.sum_congr rfl fun k _ => ?_
  rw [e, v16_at]

/-- The division stage at (b, h, s, t) is the softmax weight. -/
theorem v20_at (b : Fin 32) (h : Fin 8) (s t : Fin 1024) :
    val_main_v20 (F := Ideal) x0 x1 x2 (ix4 b h s t) = wgt (Qb x0 x1 x2 b) (Kb x0 x1 x2 b) h s t := by
  rw [val_main_v20_apply, val_main_v19_apply, val_main_v18_apply, v16_at]
  have e : idx_main_v18 (idx_main_v19 (ix4 b h s t)) = ix3 b h s := funext fun a => by
    match a with | ⟨0, _⟩ => rfl | ⟨1, _⟩ => rfl | ⟨2, _⟩ => rfl
  rw [e, v17_at]
  rfl

end Cert.ReferenceIdeal.RefValue

end
-- ==== Proof.RefValue.lean ====
/-
  The reference is the specification: its two results, as functions of the argument arrays, are `G_attn` and `G_o`.

  The head output is the key-axis sum of weight times value lane.  The transpose to [32,1024,8,16] followed by the
  reshape to [32,1024,128] reads it at head j / 16, lane j % 16: the row-major position (b * 1024 + s) * 128 + j splits
  as batch b, row s, head j / 16 and lane j % 16 since j < 128.  The output is the context row times the output weight
  plus the output bias entry.
-/
import proofs.«162198_j1477468750124_2_alg».proof.Proof.RefValueSoft

noncomputable section

namespace Cert.ReferenceIdeal.RefValue

open Cert.ReferenceIdeal Cert.ReferenceIdeal.Gen Cert.ReferenceIdeal.Read Cert.Attn
open Idealize.ShloMosaic Idealize.ShloMosaic.ValueIdx

variable (x0 : (⟨S32x1024x128, .f32⟩ : BufTy).Contents (Elt Ideal)) (x1 : (⟨S384x128, .f32⟩ : BufTy).Contents (Elt Ideal))
  (x2 : (⟨S384, .f32⟩ : BufTy).Contents (Elt Ideal))

/-- The head output stage at (b, h, s, d) is head `h`'s output at query row `s`, lane `d`. -/
theorem v21_at (b : Fin 32) (h : Fin 8) (s : Fin 1024) (d : Fin 16) :
    val_main_v21 (F := Ideal) x0 x1 x2 (ix4 b h s d) = headOut (Qb x0 x1 x2 b) (Kb x0 x1 x2 b) (Vb x0 x1 x2 b) h s d := by
  rw [val_main_v21_apply]
  have e1 : ∀ k : Fin 1024, lidx_main_v21 (ix4 b h s d) k = ix4 b h s k := fun k => funext fun a => by
    match a with | ⟨0, _⟩ => rfl | ⟨1, _⟩ => rfl | ⟨2, _⟩ => rfl | ⟨3, _⟩ => rfl
  have e2 : ∀ k : Fin 1024, ridx_main_v21 (ix4 b h s d) k = ix4 b h k d := fun k => funext fun a => by
    match a with | ⟨0, _⟩ => rfl | ⟨1, _⟩ => rfl | ⟨2, _⟩ => rfl | ⟨3, _⟩ => rfl
  unfold headOut
  refine Finset.sum_congr rfl fun k _ => ?_
  rw [e1, e2, v20_at, v8_at]

/-- The reference's second result is the per-head outputs of the specification. -/
theorem ref_attn (x0 : (⟨S32x1024x128, .f32⟩ : BufTy).Contents (Elt Ideal)) (x1 : (⟨S384x128, .f32⟩ : BufTy).Contents (Elt Ideal))
    (x2 : (⟨S384, .f32⟩ : BufTy).Contents (Elt Ideal)) :
    val_main_v21 (F := Ideal) x0 x1 x2 = G_attn x0 x1 x2 := by
  refine funext fun i => ?_
  have hi : i = ix4 (⟨(i 0).val, (i 0).isLt⟩ : Fin 32) (⟨(i 1).val, (i 1).isLt⟩ : Fin 8) (⟨(i 2).val, (i 2).isLt⟩ : Fin 1024)
      (⟨(i 3).val, (i 3).isLt⟩ : Fin 16) := funext fun a => by
    match a with | ⟨0, _⟩ => rfl | ⟨1, _⟩ => rfl | ⟨2, _⟩ => rfl | ⟨3, _⟩ => rfl
  refine (congrArg (val_main_v21 (F := Ideal) x0 x1 x2) hi).trans ?_
  exact v21_at x0 x1 x2 _ _ _ _

/-- The context stage at (b, s, j) is the context slab's column `j`: head `j / 16`, lane `j % 16`. -/
theorem v23_at (b : Fin 32) (s : Fin 1024) (j : Fin 128) :
    val_main_v23 (F := Ideal) x0 x1 x2 (ix3 b s j) = ctx (Qb x0 x1 x2 b) (Kb x0 x1 x2 b) (Vb x0 x1 x2 b) s j := by
  rw [val_main_v23_apply, val_main_v22_apply]
  have hb := b.isLt; have hs := s.isLt; have hj := j.isLt
  have e : idx_main_v22 (idx_main_v23 (ix3 b s j))
      = ix4 b (⟨j.val / 16, by omega⟩ : Fin 8) s (⟨j.val % 16, by omega⟩ : Fin 16) := funext fun a => Fin.ext (by
    match a with
    | ⟨0, _⟩ => show ((b.val * 1024 + s.val) * 128 + j.val) / 131072 = b.val; omega
    | ⟨1, _⟩ => show ((b.val * 1024 + s.val) * 128 + j.val) / 16 % 8 = j.val / 16; omega
    | ⟨2, _⟩ => show ((b.val * 1024 + s.val) * 128 + j.val) / 128 % 1024 = s.val; omega
    | ⟨3, _⟩ => show ((b.val * 1024 + s.val) * 128 + j.val) % 16 = j.val % 16; omega)
  rw [e, v21_at]
  rfl

/-- The reference's first result at (b, s, e) is the output projection of the context row. -/
theorem v27_at (x3 : (⟨S128x128, .f32⟩ : BufTy).Contents (Elt Ideal)) (x4 : (⟨S128, .f32⟩ : BufTy).Contents (Elt Ideal))
    (b : Fin 32) (s : Fin 1024) (e : Fin 128) :
    val_main_v27 (F := Ideal) x0 x1 x2 x3 x4 (ix3 b s e)
      = outRow (Qb x0 x1 x2 b) (Kb x0 x1 x2 b) (Vb x0 x1 x2 b) (fun e j => x3 (ix2 e j)) (fun e => x4 (ix1 e)) s e := by
  rw [val_main_v27_apply, val_main_v24_apply, val_main_v26_apply, val_main_v25_apply]
  have e1 : ∀ k : Fin 128, lidx_main_v24 (ix3 b s e) k = ix3 b s k := fun k => funext fun a => by
    match a with | ⟨0, _⟩ => rfl | ⟨1, _⟩ => rfl | ⟨2, _⟩ => rfl
  have e2 : ∀ k : Fin 128, ridx_main_v24 (ix3 b s e) k = ix2 e k := fun k => funext fun a => by
    match a with | ⟨0, _⟩ => rfl | ⟨1, _⟩ => rfl
  have e3 : idx_main_v25 (idx_main_v26 (ix3 b s e)) = ix1 e := funext fun a => by
    match a with | ⟨0, _⟩ => rfl
  show (∑ k : Fin 128, val_main_v23 (F := Ideal) x0 x1 x2 (lidx_main_v24 (ix3 b s e) k) * x3 (ridx_main_v24 (ix3 b s e) k))
      + x4 (idx_main_v25 (idx_main_v26 (ix3 b s e)))
    = (∑ j : Fin 128, ctx (Qb x0 x1 x2 b) (Kb x0 x1 x2 b) (Vb x0 x1 x2 b) s j * x3 (ix2 e j)) + x4 (ix1 e)
  rw [e3]
  refine congrArg (· + x4 (ix1 e)) (Finset.sum_congr rfl fun k _ => ?_)
  rw [e1, e2, v23_at]

/-- The reference's first result is the output of the specification. -/
theorem ref_o (x0 : (⟨S32x1024x128, .f32⟩ : BufTy).Contents (Elt Ideal)) (x1 : (⟨S384x128, .f32⟩ : BufTy).Contents (Elt Ideal))
    (x2 : (⟨S384, .f32⟩ : BufTy).Contents (Elt Ideal)) (x3 : (⟨S128x128, .f32⟩ : BufTy).Contents (Elt Ideal))
    (x4 : (⟨S128, .f32⟩ : BufTy).Contents (Elt Ideal)) :
    val_main_v27 (F := Ideal) x0 x1 x2 x3 x4 = G_o x0 x1 x2 x3 x4 := by
  refine funext fun i => ?_
  have hi : i = ix3 (⟨(i 0).val, (i 0).isLt⟩ : Fin 32) (⟨(i 1).val, (i 1).isLt⟩ : Fin 1024) (⟨(i 2).val, (i 2).isLt⟩ : Fin 128) :=
    funext fun a => by
      match a with | ⟨0, _⟩ => rfl | ⟨1, _⟩ => rfl | ⟨2, _⟩ => rfl
  refine (congrArg (val_main_v27 (F := Ideal) x0 x1 x2 x3 x4) hi).trans ?_
  exact v27_at x0 x1 x2 x3 x4 _ _ _

end Cert.ReferenceIdeal.RefValue

end
-- ==== Proof.lean ====
/-
  The certificate of a fused multi-head attention layer: a kernel that handles one batch row per grid point (the fused
  projection `x Wᵀ + b` as one product, eight heads of sixteen lanes each — logits, row maximum, shifted exponential, row
  sum, exact quotient, weights times values —, the heads laid side by side, the output projection) against the reference
  that computes the same layer over the whole batch with the weight's rows in their own order.

  At the ideal instance both programs compute one function of the five argument arrays (Proof/Spec.lean): the format changes
  are the identity, a product into a zero accumulator and a host contraction are the same finite sum, a lane maximum and a
  host maximum-reduce the same fold of `max` from the same word, the reference's extra `max` with that word is the identity
  on a fold that starts from it, and neither side scales the logits.  The kernel regroups the weight's rows as all queries, all
  keys, all values; the lanes it reads at its columns are the reference's lanes at theirs.  The joining laws are re-indexing of
  finite sums and congruence: nothing needs the inputs to be finite, so the precondition is never opened.

  `frame` of the kernel's program at both instances is its frame run (Proof/KFrame.lean, Proof/KIFrame.lean) with the results
  dropped; the reference's frame is its run with the results dropped; the ideal pass rewrote nothing, so `preserves` is
  trivial; `algebraic` sets the kernel's run, its two result arrays read as the specification (Proof/KIFinal.lean), beside
  the reference's run, whose two results are the specification too (Proof/RefValue.lean), on arguments that agree.
-/
import proofs.«162198_j1477468750124_2_alg».proof.Defs
import proofs.«162198_j1477468750124_2_alg».proof.Proof.Gen.Kernel
import proofs.«162198_j1477468750124_2_alg».proof.Proof.Gen.KernelIdeal
import proofs.«162198_j1477468750124_2_alg».proof.Proof.Gen.ReferenceIdeal
import proofs.«162198_j1477468750124_2_alg».proof.Proof.Gen.Pre_finite_inputs
import proofs.«162198_j1477468750124_2_alg».proof.Proof.Gen.ReferenceIdeal.Run
import proofs.«162198_j1477468750124_2_alg».proof.Proof.Gen.ReferenceIdeal.Read
import proofs.«162198_j1477468750124_2_alg».proof.Proof.KFrame
import proofs.«162198_j1477468750124_2_alg».proof.Proof.KIFrame
import proofs.«162198_j1477468750124_2_alg».proof.Proof.KIFinal
import proofs.«162198_j1477468750124_2_alg».proof.Proof.RefValue

noncomputable section

namespace Cert.Proof

open Idealize.ShloMosaic Idealize.SL.Sem Cert.Attn

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

theorem preserves : Cert.preserves_Kernel_KernelIdeal := trivial

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => G_o (Cert.KernelIdeal.Final.a0 m c) (Cert.KernelIdeal.Final.a1 m c) (Cert.KernelIdeal.Final.a2 m c)
      (Cert.KernelIdeal.Final.a3 m c) (Cert.KernelIdeal.Final.a4 m c),
    fun c => G_attn (Cert.KernelIdeal.Final.a0 m c) (Cert.KernelIdeal.Final.a1 m c) (Cert.KernelIdeal.Final.a2 m c), ?_, ?_⟩
  · exact (θ_run Cert.KernelIdeal.defs _ _).mono
      (fun r h c => ⟨(Cert.KernelIdeal.Final.results_of_post m r h c).1, (Cert.KernelIdeal.Final.results_of_post m r h c).2,
        Cert.KernelIdeal.Hand.kept_of_post m r h c⟩)
      (Cert.KernelIdeal.Hand.run_main m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v27_eq, Cert.ReferenceIdeal.RefValue.ref_o, (hagree c).1, (hagree c).2.1,
        (hagree c).2.2.1, (hagree c).2.2.2.1, (hagree c).2.2.2.2]
    · rw [Cert.ReferenceIdeal.Read.val_main_v21_eq, Cert.ReferenceIdeal.RefValue.ref_attn, (hagree c).1, (hagree c).2.1,
        (hagree c).2.2.1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
